-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x128 : Shape := ⟨2, ![150000, 128]⟩
abbrev S2x2400000 : Shape := ⟨2, ![2, 2400000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S150000x128 : S_.BroadcastsInDim S150000x128 (![] : Fin 0 → Fin S150000x128.rank)
  reducesTo_S150000x128_S_d0_1 : S150000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S150000x128 .f32) (main_arg1 : IVec S2x2400000 32) (main_arg2 : FVec F S128x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S150000x128 .f32 := Host.absf main_arg0
  let main_cst : FVec F S_ .f32 := constant S_ .f32 0x7F800000#32
  let main_v1 : FVec F S150000x128 .f32 := broadcastInDim S150000x128 ![] bcast_S_S150000x128 main_cst
  let main_v2 : IVec S150000x128 1 := cmpf .olt main_v0 main_v1
  let main_c : IVec S_ 1 := constantI S_ 1 1#1
  let main_v3 : IVec S_ 1 := (fun x v => Host.reduce IntOp.andi x v reducesTo_S150000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S150000x128 : Shape := ⟨2, ![150000, 128]⟩
abbrev S2x2400000 : Shape := ⟨2, ![2, 2400000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S150000 : Shape := ⟨1, ![150000]⟩
abbrev S1x2400000 : Shape := ⟨2, ![1, 2400000]⟩
abbrev S2400000 : Shape := ⟨1, ![2400000]⟩
abbrev S2550000 : Shape := ⟨1, ![2550000]⟩
abbrev S_ : Shape := ⟨0, ![]⟩
abbrev S2550000x1 : Shape := ⟨2, ![2550000, 1]⟩
abbrev S150000x32 : Shape := ⟨2, ![150000, 32]⟩
abbrev S6000x128 : Shape := ⟨2, ![6000, 128]⟩
abbrev S6000x32 : Shape := ⟨2, ![6000, 32]⟩
abbrev S2550000x32 : Shape := ⟨2, ![2550000, 32]⟩
abbrev S1x32 : Shape := ⟨2, ![1, 32]⟩
abbrev S150000x1 : Shape := ⟨2, ![150000, 1]⟩
abbrev S6000x1 : Shape := ⟨2, ![6000, 1]⟩
abbrev S1x1 : Shape := ⟨2, ![1, 1]⟩

abbrev nBuf : Space → Nat
  | .hbm => 95
  | .vmem => 30
  | .smem => 0
  | _ => 0

abbrev bufTy : (tb : Table) → Fin (tcTables nBuf tb) → BufTy
  | .hbm, ⟨0, _⟩ => ⟨S150000x128, .f32⟩
  | .hbm, ⟨1, _⟩ => ⟨S2x2400000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S150000, .i32⟩
  | .hbm, ⟨9, _⟩ => ⟨S1x2400000, .i32⟩
  | .hbm, ⟨10, _⟩ => ⟨S2400000, .i32⟩
  | .hbm, ⟨11, _⟩ => ⟨S2550000, .i32⟩
  | .hbm, ⟨12, _⟩ => ⟨S1x2400000, .i32⟩
  | .hbm, ⟨13, _⟩ => ⟨S2400000, .i32⟩
  | .hbm, ⟨14, _⟩ => ⟨S2550000, .i32⟩
  | .hbm, ⟨15, _⟩ => ⟨S_, .f32⟩
  | .hbm, ⟨16, _⟩ => ⟨S2550000, .f32⟩
  | .hbm, ⟨17, _⟩ => ⟨S_, .f32⟩
  | .hbm, ⟨18, _⟩ => ⟨S150000, .f32⟩
  | .hbm, ⟨19, _⟩ => ⟨S2550000x1, .i32⟩
  | .hbm, ⟨20, _⟩ => ⟨S150000, .f32⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S150000, .f32⟩
  | .hbm, ⟨25, _⟩ => ⟨S_, .i32⟩
  | .hbm, ⟨26, _⟩ => ⟨S2550000, .i32⟩
  | .hbm, ⟨27, _⟩ => ⟨S2550000, .i1⟩
  | .hbm, ⟨28, _⟩ => ⟨S_, .i32⟩
  | .hbm, ⟨29, _⟩ => ⟨S2550000, .i32⟩
  | .hbm, ⟨30, _⟩ => ⟨S2550000, .i32⟩
  | .hbm, ⟨31, _⟩ => ⟨S2550000, .i32⟩
  | .hbm, ⟨32, _⟩ => ⟨S2550000x1, .i32⟩
  | .hbm, ⟨33, _⟩ => ⟨S2550000, .f32⟩
  | .hbm, ⟨34, _⟩ => ⟨S_, .i32⟩
  | .hbm, ⟨35, _⟩ => ⟨S2550000, .i32⟩
  | .hbm, ⟨36, _⟩ => ⟨S2550000, .i1⟩
  | .hbm, ⟨37, _⟩ => ⟨S_, .i32⟩
  | .hbm, ⟨38, _⟩ => ⟨S2550000, .i32⟩
  | .hbm, ⟨39, _⟩ => ⟨S2550000, .i32⟩
  | .hbm, ⟨40, _⟩ => ⟨S2550000, .i32⟩
  | .hbm, ⟨41, _⟩ => ⟨S2550000x1, .i32⟩
  | .hbm, ⟨42, _⟩ => ⟨S2550000, .f32⟩
  | .hbm, ⟨43, _⟩ => ⟨S2550000, .f32⟩
  | .hbm, ⟨44, _⟩ => ⟨S2550000x1, .f32⟩
  | .hbm, ⟨45, _⟩ => ⟨S150000x32, .f32⟩
  | .hbm, ⟨46, _⟩ => ⟨S_, .i32⟩
  | .hbm, ⟨47, _⟩ => ⟨S2550000, .i32⟩
  | .hbm, ⟨48, _⟩ => ⟨S2550000, .i1⟩
  | .hbm, ⟨49, _⟩ => ⟨S_, .i32⟩
  | .hbm, ⟨50, _⟩ => ⟨S2550000, .i32⟩
  | .hbm, ⟨51, _⟩ => ⟨S2550000, .i32⟩
  | .hbm, ⟨52, _⟩ => ⟨S2550000, .i32⟩
  | .hbm, ⟨53, _⟩ => ⟨S2550000x1, .i32⟩
  | .hbm, ⟨54, _⟩ => ⟨S2550000x32, .f32⟩
  | .hbm, ⟨55, _⟩ => ⟨S2550000x32, .f32⟩
  | .hbm, ⟨56, _⟩ => ⟨S2550000x32, .f32⟩
  | .hbm, ⟨57, _⟩ => ⟨S_, .f32⟩
  | .hbm, ⟨58, _⟩ => ⟨S150000x32, .f32⟩
  | .hbm, ⟨59, _⟩ => ⟨S2550000x1, .i32⟩
  | .hbm, ⟨60, _⟩ => ⟨S150000x32, .f32⟩
  | .hbm, ⟨61, _⟩ => ⟨S150000x32, .f32⟩
  | .hbm, ⟨62, _⟩ => ⟨S150000x32, .f32⟩
  | .hbm, ⟨63, _⟩ => ⟨S_, .i32⟩
  | .hbm, ⟨64, _⟩ => ⟨S2550000, .i32⟩
  | .hbm, ⟨65, _⟩ => ⟨S2550000, .i1⟩
  | .hbm, ⟨66, _⟩ => ⟨S_, .i32⟩
  | .hbm, ⟨67, _⟩ => ⟨S2550000, .i32⟩
  | .hbm, ⟨68, _⟩ => ⟨S2550000, .i32⟩
  | .hbm, ⟨69, _⟩ => ⟨S2550000, .i32⟩
  | .hbm, ⟨70, _⟩ => ⟨S2550000x1, .i32⟩
  | .hbm, ⟨71, _⟩ => ⟨S2550000x32, .f32⟩
  | .hbm, ⟨72, _⟩ => ⟨S2550000x32, .f32⟩
  | .hbm, ⟨73, _⟩ => ⟨S2550000x32, .f32⟩
  | .hbm, ⟨74, _⟩ => ⟨S_, .f32⟩
  | .hbm, ⟨75, _⟩ => ⟨S150000x32, .f32⟩
  | .hbm, ⟨76, _⟩ => ⟨S2550000x1, .i32⟩
  | .hbm, ⟨77, _⟩ => ⟨S150000x32, .f32⟩
  | .hbm, ⟨78, _⟩ => ⟨S150000x32, .f32⟩
  | .hbm, ⟨79, _⟩ => ⟨S150000x1, .f32⟩
  | .hbm, ⟨80, _⟩ => ⟨S_, .i32⟩
  | .hbm, ⟨81, _⟩ => ⟨S2550000, .i32⟩
  | .hbm, ⟨82, _⟩ => ⟨S2550000, .i1⟩
  | .hbm, ⟨83, _⟩ => ⟨S_, .i32⟩
  | .hbm, ⟨84, _⟩ => ⟨S2550000, .i32⟩
  | .hbm, ⟨85, _⟩ => ⟨S2550000, .i32⟩
  | .hbm, ⟨86, _⟩ => ⟨S2550000, .i32⟩
  | .hbm, ⟨87, _⟩ => ⟨S2550000x1, .i32⟩
  | .hbm, ⟨88, _⟩ => ⟨S2550000x1, .f32⟩
  | .hbm, ⟨89, _⟩ => ⟨S2550000x1, .f32⟩
  | .hbm, ⟨90, _⟩ => ⟨S_, .f32⟩
  | .hbm, ⟨91, _⟩ => ⟨S150000x1, .f32⟩
  | .hbm, ⟨92, _⟩ => ⟨S2550000x1, .i32⟩
  | .hbm, ⟨93, _⟩ => ⟨S150000x1, .f32⟩
  | .hbm, ⟨94, _⟩ => ⟨S150000x1, .f32⟩
  | .local _ .vmem, ⟨0, _⟩ => ⟨S6000x128, .f32⟩
  | .local _ .vmem, ⟨1, _⟩ => ⟨S6000x128, .f32⟩
  | .local _ .vmem, ⟨2, _⟩ => ⟨S128x32, .f32⟩
  | .local _ .vmem, ⟨3, _⟩ => ⟨S6000x32, .f32⟩
  | .local _ .vmem, ⟨4, _⟩ => ⟨S6000x32, .f32⟩
  | .local _ .vmem, ⟨5, _⟩ => ⟨S6000x32, .f32⟩
  | .local _ .vmem, ⟨6, _⟩ => ⟨S6000x32, .f32⟩
  | .local _ .vmem, ⟨7, _⟩ => ⟨S32, .f32⟩
  | .local _ .vmem, ⟨8, _⟩ => ⟨S6000x32, .f32⟩
  | .local _ .vmem, ⟨9, _⟩ => ⟨S6000x32, .f32⟩
  | .local _ .vmem, ⟨10, _⟩ => ⟨S6000x32, .f32⟩
  | .local _ .vmem, ⟨11, _⟩ => ⟨S6000x32, .f32⟩
  | .local _ .vmem, ⟨12, _⟩ => ⟨S32x32, .f32⟩
  | .local _ .vmem, ⟨13, _⟩ => ⟨S6000x32, .f32⟩
  | .local _ .vmem, ⟨14, _⟩ => ⟨S6000x32, .f32⟩
  | .local _ .vmem, ⟨15, _⟩ => ⟨S6000x32, .f32⟩
  | .local _ .vmem, ⟨16, _⟩ => ⟨S6000x32, .f32⟩
  | .local _ .vmem, ⟨17, _⟩ => ⟨S32, .f32⟩
  | .local _ .vmem, ⟨18, _⟩ => ⟨S6000x32, .f32⟩
  | .local _ .vmem, ⟨19, _⟩ => ⟨S6000x32, .f32⟩
  | .local _ .vmem, ⟨20, _⟩ => ⟨S6000x32, .f32⟩
  | .local _ .vmem, ⟨21, _⟩ => ⟨S6000x32, .f32⟩
  | .local _ .vmem, ⟨22, _⟩ => ⟨S32x1, .f32⟩
  | .local _ .vmem, ⟨23, _⟩ => ⟨S6000x1, .f32⟩
  | .local _ .vmem, ⟨24, _⟩ => ⟨S6000x1, .f32⟩
  | .local _ .vmem, ⟨25, _⟩ => ⟨S6000x1, .f32⟩
  | .local _ .vmem, ⟨26, _⟩ => ⟨S6000x1, .f32⟩
  | .local _ .vmem, ⟨27, _⟩ => ⟨S1, .f32⟩
  | .local _ .vmem, ⟨28, _⟩ => ⟨S6000x1, .f32⟩
  | .local _ .vmem, ⟨29, _⟩ => ⟨S6000x1, .f32⟩
  | _, _ => ⟨S150000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S6000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S6000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S6000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x2400000_S1x2400000_0_0 : S2x2400000.Slices ![0, 0] S1x2400000
  shapeCasts_S1x2400000_S2400000 : S1x2400000.ShapeCasts S2400000
  concatenates_S2400000_S150000_S2550000_d0 : Shape.Concatenates [S2400000, S150000] S2550000 0
  slices_S2x2400000_S1x2400000_1_0 : S2x2400000.Slices ![1, 0] S1x2400000
  bcast_S_S2550000 : S_.BroadcastsInDim S2550000 (![] : Fin 0 → Fin S2550000.rank)
  bcast_S_S150000 : S_.BroadcastsInDim S150000 (![] : Fin 0 → Fin S150000.rank)
  bcast_S2550000_S2550000x1_0 : S2550000.BroadcastsInDim S2550000x1 (![0] : Fin 1 → Fin S2550000x1.rank)
  inb_S6000x128_S6000x128_0_0 : ∀ a, (![0, 0] : Fin 2 → Nat) a + S6000x128.size a ≤ S6000x128.size a
  h_S6000x128 : 0 < S6000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S6000x32_S6000x32_0_0 : ∀ a, (![0, 0] : Fin 2 → Nat) a + S6000x32.size a ≤ S6000x32.size a
  h_S6000x32 : 0 < S6000x32.numel
  bcast_S2550000x1_S2550000x32_0_1 : S2550000x1.BroadcastsInDim S2550000x32 (![0, 1] : Fin 2 → Fin S2550000x32.rank)
  bcast_S_S150000x32 : S_.BroadcastsInDim S150000x32 (![] : Fin 0 → Fin S150000x32.rank)
  shapeCasts_S6000x32_S6000x32 : S6000x32.ShapeCasts S6000x32
  inb_S32_S32_0 : ∀ a, (![0] : Fin 1 → Nat) a + S32.size a ≤ S32.size a
  h_S32 : 0 < S32.numel
  shapeCasts_S32_S1x32 : S32.ShapeCasts S1x32
  broadcasts_S1x32_S6000x32 : S1x32.Broadcasts S6000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S6000x1_S6000x1_0_0 : ∀ a, (![0, 0] : Fin 2 → Nat) a + S6000x1.size a ≤ S6000x1.size a
  h_S6000x1 : 0 < S6000x1.numel
  bcast_S_S150000x1 : S_.BroadcastsInDim S150000x1 (![] : Fin 0 → Fin S150000x1.rank)
  shapeCasts_S6000x1_S6000x1 : S6000x1.ShapeCasts S6000x1
  inb_S1_S1_0 : ∀ a, (![0] : Fin 1 → Nat) a + S1.size a ≤ S1.size a
  h_S1 : 0 < S1.numel
  shapeCasts_S1_S1x1 : S1.ShapeCasts S1x1
  broadcasts_S1x1_S6000x1 : S1x1.Broadcasts S6000x1
  scatter_S150000_S2550000x1_S2550000_n_0_0_1_wf : ScatterDims.WF S150000 S2550000x1 S2550000 [] [0] [0] 1
  gather_S150000_S2550000x1_S2550000_n_0_n_n_0_1_1_wf : GatherDims.WF S150000 S2550000x1 S2550000 [] [0] [] [0] [] 1 ![1]
  dot_S6000x128_S128x32_S6000x32_1_0_0_1_n_n_wf : DotDims.WF S6000x128 S128x32 S6000x32 [1] [0] [0] [1] [] []
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S6000x32_S32x32_S6000x32_1_0_0_1_n_n_wf : DotDims.WF S6000x32 S32x32 S6000x32 [1] [0] [0] [1] [] []
  dot_S6000x32_S32x1_S6000x1_1_0_0_1_n_n_wf : DotDims.WF S6000x32 S32x1 S6000x1 [1] [0] [0] [1] [] []
  gather_S150000x1_S2550000x1_S2550000x1_1_0_n_n_0_1_11_wf : GatherDims.WF S150000x1 S2550000x1 S2550000x1 [1] [0] [] [0] [] 1 ![1, 1]
  scatter_S150000x1_S2550000x1_S2550000x1_1_0_0_1_wf : ScatterDims.WF S150000x1 S2550000x1 S2550000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S150000x128.size a
  hwx0_0 : ∀ i : grid0.Coords, EltTy.bits .f32 = 32 ∨ (Rect.block (s := S150000x128) S6000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x32.size a ≤ S150000x32.size a
  hwx0_2 : ∀ i : grid0.Coords, EltTy.bits .f32 = 32 ∨ (Rect.block (s := S150000x32) S6000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x32.size a ≤ S150000x32.size a
  hwx1_0 : ∀ i : grid1.Coords, EltTy.bits .f32 = 32 ∨ (Rect.block (s := S150000x32) S6000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32.size a ≤ S32.size a
  hwx1_1 : ∀ i : grid1.Coords, EltTy.bits .f32 = 32 ∨ (Rect.block (s := S32) S32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x32.size a ≤ S150000x32.size a
  hwx1_2 : ∀ i : grid1.Coords, EltTy.bits .f32 = 32 ∨ (Rect.block (s := S150000x32) S6000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S150000x32.size a
  hwx2_0 : ∀ i : grid2.Coords, EltTy.bits .f32 = 32 ∨ (Rect.block (s := S150000x32) S6000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x32.size a ≤ S150000x32.size a
  hwx2_2 : ∀ i : grid2.Coords, EltTy.bits .f32 = 32 ∨ (Rect.block (s := S150000x32) S6000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x32.size a ≤ S150000x32.size a
  hwx3_0 : ∀ i : grid3.Coords, EltTy.bits .f32 = 32 ∨ (Rect.block (s := S150000x32) S6000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32.size a ≤ S32.size a
  hwx3_1 : ∀ i : grid3.Coords, EltTy.bits .f32 = 32 ∨ (Rect.block (s := S32) S32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x32.size a ≤ S150000x32.size a
  hwx3_2 : ∀ i : grid3.Coords, EltTy.bits .f32 = 32 ∨ (Rect.block (s := S150000x32) S6000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x32.size a ≤ S150000x32.size a
  hwx4_0 : ∀ i : grid4.Coords, EltTy.bits .f32 = 32 ∨ (Rect.block (s := S150000x32) S6000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x1.size a ≤ S150000x1.size a
  hwx4_2 : ∀ i : grid4.Coords, EltTy.bits .f32 = 32 ∨ (Rect.block (s := S150000x1) S6000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x1.size a ≤ S150000x1.size a
  hwx5_0 : ∀ i : grid5.Coords, EltTy.bits .f32 = 32 ∨ (Rect.block (s := S150000x1) S6000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1.size a ≤ S1.size a
  hwx5_1 : ∀ i : grid5.Coords, EltTy.bits .f32 = 32 ∨ (Rect.block (s := S1) S1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x1.size a ≤ S150000x1.size a
  hwx5_2 : ∀ i : grid5.Coords, EltTy.bits .f32 = 32 ∨ (Rect.block (s := S150000x1) S6000x1.size (cc5_transform_2 i) (hinb5_2 i)).WholeWords (EltTy.packing .f32)

variable [Facts₀]

def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def dot_S6000x128_S128x32_S6000x32_1_0_0_1_n_n : DotDims S6000x128 S128x32 S6000x32 where
  lhsContracting := [1]
  rhsContracting := [0]
  lhsNonContracting := [0]
  rhsNonContracting := [1]
  lhsBatch := []
  rhsBatch := []
  wf := dot_S6000x128_S128x32_S6000x32_1_0_0_1_n_n_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def dot_S6000x32_S32x1_S6000x1_1_0_0_1_n_n : DotDims S6000x32 S32x1 S6000x1 where
  lhsContracting := [1]
  rhsContracting := [0]
  lhsNonContracting := [0]
  rhsNonContracting := [1]
  lhsBatch := []
  rhsBatch := []
  wf := dot_S6000x32_S32x1_S6000x1_1_0_0_1_n_n_wf
def gather_S150000x1_S2550000x1_S2550000x1_1_0_n_n_0_1_11 : GatherDims S150000x1 S2550000x1 S2550000x1 where
  offsetDims := [1]
  collapsedSliceDims := [0]
  operandBatchingDims := []
  startIndicesBatchingDims := []
  startIndexMap := [0]
  indexVectorDim := 1
  sliceSizes := ![1, 1]
  wf := gather_S150000x1_S2550000x1_S2550000x1_1_0_n_n_0_1_11_wf
def scatter_S150000x1_S2550000x1_S2550000x1_1_0_0_1 : ScatterDims S150000x1 S2550000x1 S2550000x1 where
  updateWindowDims := [1]
  insertedWindowDims := [0]
  scatterDimsToOperandDims := [0]
  indexVectorDim := 1
  wf := scatter_S150000x1_S2550000x1_S2550000x1_1_0_0_1_wf

abbrev win0_0 : Pipeline.Window sig grid0 :=
  Pipeline.Window.ofSpec (Memref.whole main_arg0) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S6000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S6000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S6000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S6000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S6000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S6000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S6000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S6000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S6000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S6000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S150000x128 : Shape := ⟨2, ![150000, 128]⟩
abbrev S2x2400000 : Shape := ⟨2, ![2, 2400000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S150000 : Shape := ⟨1, ![150000]⟩
abbrev S1x2400000 : Shape := ⟨2, ![1, 2400000]⟩
abbrev S2400000 : Shape := ⟨1, ![2400000]⟩
abbrev S2550000 : Shape := ⟨1, ![2550000]⟩
abbrev S_ : Shape := ⟨0, ![]⟩
abbrev S2550000x1 : Shape := ⟨2, ![2550000, 1]⟩
abbrev S150000x32 : Shape := ⟨2, ![150000, 32]⟩
abbrev S2550000x32 : Shape := ⟨2, ![2550000, 32]⟩
abbrev S1x32 : Shape := ⟨2, ![1, 32]⟩
abbrev S150000x1 : Shape := ⟨2, ![150000, 1]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S150000x128, .f32⟩
  | .hbm, ⟨1, _⟩ => ⟨S2x2400000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S150000, .i32⟩
  | .hbm, ⟨9, _⟩ => ⟨S1x2400000, .i32⟩
  | .hbm, ⟨10, _⟩ => ⟨S2400000, .i32⟩
  | .hbm, ⟨11, _⟩ => ⟨S2550000, .i32⟩
  | .hbm, ⟨12, _⟩ => ⟨S1x2400000, .i32⟩
  | .hbm, ⟨13, _⟩ => ⟨S2400000, .i32⟩
  | .hbm, ⟨14, _⟩ => ⟨S2550000, .i32⟩
  | .hbm, ⟨15, _⟩ => ⟨S_, .f32⟩
  | .hbm, ⟨16, _⟩ => ⟨S2550000, .f32⟩
  | .hbm, ⟨17, _⟩ => ⟨S_, .f32⟩
  | .hbm, ⟨18, _⟩ => ⟨S150000, .f32⟩
  | .hbm, ⟨19, _⟩ => ⟨S2550000x1, .i32⟩
  | .hbm, ⟨20, _⟩ => ⟨S150000, .f32⟩
  | .hbm, ⟨21, _⟩ => ⟨S_, .f32⟩
  | .hbm, ⟨22, _⟩ => ⟨S150000, .f32⟩
  | .hbm, ⟨23, _⟩ => ⟨S150000, .f32⟩
  | .hbm, ⟨24, _⟩ => ⟨S150000, .f32⟩
  | .hbm, ⟨25, _⟩ => ⟨S_, .i32⟩
  | .hbm, ⟨26, _⟩ => ⟨S2550000, .i32⟩
  | .hbm, ⟨27, _⟩ => ⟨S2550000, .i1⟩
  | .hbm, ⟨28, _⟩ => ⟨S_, .i32⟩
  | .hbm, ⟨29, _⟩ => ⟨S2550000, .i32⟩
  | .hbm, ⟨30, _⟩ => ⟨S2550000, .i32⟩
  | .hbm, ⟨31, _⟩ => ⟨S2550000, .i32⟩
  | .hbm, ⟨32, _⟩ => ⟨S2550000x1, .i32⟩
  | .hbm, ⟨33, _⟩ => ⟨S2550000, .f32⟩
  | .hbm, ⟨34, _⟩ => ⟨S_, .i32⟩
  | .hbm, ⟨35, _⟩ => ⟨S2550000, .i32⟩
  | .hbm, ⟨36, _⟩ => ⟨S2550000, .i1⟩
  | .hbm, ⟨37, _⟩ => ⟨S_, .i32⟩
  | .hbm, ⟨38, _⟩ => ⟨S2550000, .i32⟩
  | .hbm, ⟨39, _⟩ => ⟨S2550000, .i32⟩
  | .hbm, ⟨40, _⟩ => ⟨S2550000, .i32⟩
  | .hbm, ⟨41, _⟩ => ⟨S2550000x1, .i32⟩
  | .hbm, ⟨42, _⟩ => ⟨S2550000, .f32⟩
  | .hbm, ⟨43, _⟩ => ⟨S2550000, .f32⟩
  | .hbm, ⟨44, _⟩ => ⟨S2550000x1, .f32⟩
  | .hbm, ⟨45, _⟩ => ⟨S150000x32, .f32⟩
  | .hbm, ⟨46, _⟩ => ⟨S_, .i32⟩
  | .hbm, ⟨47, _⟩ => ⟨S2550000, .i32⟩
  | .hbm, ⟨48, _⟩ => ⟨S2550000, .i1⟩
  | .hbm, ⟨49, _⟩ => ⟨S_, .i32⟩
  | .hbm, ⟨50, _⟩ => ⟨S2550000, .i32⟩
  | .hbm, ⟨51, _⟩ => ⟨S2550000, .i32⟩
  | .hbm, ⟨52, _⟩ => ⟨S2550000, .i32⟩
  | .hbm, ⟨53, _⟩ => ⟨S2550000x1, .i32⟩
  | .hbm, ⟨54, _⟩ => ⟨S2550000x32, .f32⟩
  | .hbm, ⟨55, _⟩ => ⟨S2550000x32, .f32⟩
  | .hbm, ⟨56, _⟩ => ⟨S2550000x32, .f32⟩
  | .hbm, ⟨57, _⟩ => ⟨S_, .f32⟩
  | .hbm, ⟨58, _⟩ => ⟨S150000x32, .f32⟩
  | .hbm, ⟨59, _⟩ => ⟨S2550000x1, .i32⟩
  | .hbm, ⟨60, _⟩ => ⟨S150000x32, .f32⟩
  | .hbm, ⟨61, _⟩ => ⟨S1x32, .f32⟩
  | .hbm, ⟨62, _⟩ => ⟨S150000x32, .f32⟩
  | .hbm, ⟨63, _⟩ => ⟨S150000x32, .f32⟩
  | .hbm, ⟨64, _⟩ => ⟨S_, .f32⟩
  | .hbm, ⟨65, _⟩ => ⟨S150000x32, .f32⟩
  | .hbm, ⟨66, _⟩ => ⟨S150000x32, .f32⟩
  | .hbm, ⟨67, _⟩ => ⟨S150000x32, .f32⟩
  | .hbm, ⟨68, _⟩ => ⟨S_, .i32⟩
  | .hbm, ⟨69, _⟩ => ⟨S2550000, .i32⟩
  | .hbm, ⟨70, _⟩ => ⟨S2550000, .i1⟩
  | .hbm, ⟨71, _⟩ => ⟨S_, .i32⟩
  | .hbm, ⟨72, _⟩ => ⟨S2550000, .i32⟩
  | .hbm, ⟨73, _⟩ => ⟨S2550000, .i32⟩
  | .hbm, ⟨74, _⟩ => ⟨S2550000, .i32⟩
  | .hbm, ⟨75, _⟩ => ⟨S2550000x1, .i32⟩
  | .hbm, ⟨76, _⟩ => ⟨S2550000x32, .f32⟩
  | .hbm, ⟨77, _⟩ => ⟨S2550000x32, .f32⟩
  | .hbm, ⟨78, _⟩ => ⟨S2550000x32, .f32⟩
  | .hbm, ⟨79, _⟩ => ⟨S_, .f32⟩
  | .hbm, ⟨80, _⟩ => ⟨S150000x32, .f32⟩
  | .hbm, ⟨81, _⟩ => ⟨S2550000x1, .i32⟩
  | .hbm, ⟨82, _⟩ => ⟨S150000x32, .f32⟩
  | .hbm, ⟨83, _⟩ => ⟨S1x32, .f32⟩
  | .hbm, ⟨84, _⟩ => ⟨S150000x32, .f32⟩
  | .hbm, ⟨85, _⟩ => ⟨S150000x32, .f32⟩
  | .hbm, ⟨86, _⟩ => ⟨S_, .f32⟩
  | .hbm, ⟨87, _⟩ => ⟨S150000x32, .f32⟩
  | .hbm, ⟨88, _⟩ => ⟨S150000x32, .f32⟩
  | .hbm, ⟨89, _⟩ => ⟨S150000x1, .f32⟩
  | .hbm, ⟨90, _⟩ => ⟨S_, .i32⟩
  | .hbm, ⟨91, _⟩ => ⟨S2550000, .i32⟩
  | .hbm, ⟨92, _⟩ => ⟨S2550000, .i1⟩
  | .hbm, ⟨93, _⟩ => ⟨S_, .i32⟩
  | .hbm, ⟨94, _⟩ => ⟨S2550000, .i32⟩
  | .hbm, ⟨95, _⟩ => ⟨S2550000, .i32⟩
  | .hbm, ⟨96, _⟩ => ⟨S2550000, .i32⟩
  | .hbm, ⟨97, _⟩ => ⟨S2550000x1, .i32⟩
  | .hbm, ⟨98, _⟩ => ⟨S2550000x1, .f32⟩
  | .hbm, ⟨99, _⟩ => ⟨S2550000x1, .f32⟩
  | .hbm, ⟨100, _⟩ => ⟨S_, .f32⟩
  | .hbm, ⟨101, _⟩ => ⟨S150000x1, .f32⟩
  | .hbm, ⟨102, _⟩ => ⟨S2550000x1, .i32⟩
  | .hbm, ⟨103, _⟩ => ⟨S150000x1, .f32⟩
  | .hbm, ⟨104, _⟩ => ⟨S1x1, .f32⟩
  | .hbm, ⟨105, _⟩ => ⟨S150000x1, .f32⟩
  | .hbm, ⟨106, _⟩ => ⟨S150000x1, .f32⟩
  | .hbm, ⟨107, _⟩ => ⟨S150000x1, .f32⟩
  | .hbm, ⟨108, _⟩ => ⟨S150000x1, .f32⟩
  | .hbm, ⟨109, _⟩ => ⟨S_, .f32⟩
  | .hbm, ⟨110, _⟩ => ⟨S150000x1, .f32⟩
  | .hbm, ⟨111, _⟩ => ⟨S150000x1, .f32⟩
  | .hbm, ⟨112, _⟩ => ⟨S_, .f32⟩
  | .hbm, ⟨113, _⟩ => ⟨S150000x1, .f32⟩
  | .hbm, ⟨114, _⟩ => ⟨S150000x1, .f32⟩
  | _, _ => ⟨S150000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  concatenates_S2400000_S150000_S2550000_d0 : Shape.Concatenates [S2400000, S150000] S2550000 0
  slices_S2x2400000_S1x2400000_1_0 : S2x2400000.Slices ![1, 0] S1x2400000
  bcast_S_S2550000 : S_.BroadcastsInDim S2550000 (![] : Fin 0 → Fin S2550000.rank)
  bcast_S_S150000 : S_.BroadcastsInDim S150000 (![] : Fin 0 → Fin S150000.rank)
  bcast_S2550000_S2550000x1_0 : S2550000.BroadcastsInDim S2550000x1 (![0] : Fin 1 → Fin S2550000x1.rank)
  bcast_S2550000x1_S2550000x32_0_1 : S2550000x1.BroadcastsInDim S2550000x32 (![0, 1] : Fin 2 → Fin S2550000x32.rank)
  bcast_S_S150000x32 : S_.BroadcastsInDim S150000x32 (![] : Fin 0 → Fin S150000x32.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  bcast_S_S150000x1 : S_.BroadcastsInDim S150000x1 (![] : Fin 0 → Fin S150000x1.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  scatter_S150000_S2550000x1_S2550000_n_0_0_1_wf : ScatterDims.WF S150000 S2550000x1 S2550000 [] [0] [0] 1
  gather_S150000_S2550000x1_S2550000_n_0_n_n_0_1_1_wf : GatherDims.WF S150000 S2550000x1 S2550000 [] [0] [] [0] [] 1 ![1]
  dot_S150000x128_S128x32_S150000x32_1_0_0_1_n_n_wf : DotDims.WF S150000x128 S128x32 S150000x32 [1] [0] [0] [1] [] []
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S150000x32_S32x32_S150000x32_1_0_0_1_n_n_wf : DotDims.WF S150000x32 S32x32 S150000x32 [1] [0] [0] [1] [] []
  dot_S150000x32_S32x1_S150000x1_1_0_0_1_n_n_wf : DotDims.WF S150000x32 S32x1 S150000x1 [1] [0] [0] [1] [] []
  gather_S150000x1_S2550000x1_S2550000x1_1_0_n_n_0_1_11_wf : GatherDims.WF S150000x1 S2550000x1 S2550000x1 [1] [0] [] [0] [] 1 ![1, 1]
  scatter_S150000x1_S2550000x1_S2550000x1_1_0_0_1_wf : ScatterDims.WF S150000x1 S2550000x1 S2550000x1 [1] [0] [0] 1

variable [Facts₀]

def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def dot_S150000x128_S128x32_S150000x32_1_0_0_1_n_n : DotDims S150000x128 S128x32 S150000x32 where
  lhsContracting := [1]
  rhsContracting := [0]
  lhsNonContracting := [0]
  rhsNonContracting := [1]
  lhsBatch := []
  rhsBatch := []
  wf := dot_S150000x128_S128x32_S150000x32_1_0_0_1_n_n_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S150000x32_S32x32_S150000x32_1_0_0_1_n_n : DotDims S150000x32 S32x32 S150000x32 where
  lhsContracting := [1]
  rhsContracting := [0]
  lhsNonContracting := [0]
  rhsNonContracting := [1]
  lhsBatch := []
  rhsBatch := []
  wf := dot_S150000x32_S32x32_S150000x32_1_0_0_1_n_n_wf
def dot_S150000x32_S32x1_S150000x1_1_0_0_1_n_n : DotDims S150000x32 S32x1 S150000x1 where
  lhsContracting := [1]
  rhsContracting := [0]
  lhsNonContracting := [0]
  rhsNonContracting := [1]
  lhsBatch := []
  rhsBatch := []
  wf := dot_S150000x32_S32x1_S150000x1_1_0_0_1_n_n_wf
def gather_S150000x1_S2550000x1_S2550000x1_1_0_n_n_0_1_11 : GatherDims S150000x1 S2550000x1 S2550000x1 where
  offsetDims := [1]
  collapsedSliceDims := [0]
  operandBatchingDims := []
  startIndicesBatchingDims := []
  startIndexMap := [0]
  indexVectorDim := 1
  sliceSizes := ![1, 1]
  wf := gather_S150000x1_S2550000x1_S2550000x1_1_0_n_n_0_1_11_wf
def scatter_S150000x1_S2550000x1_S2550000x1_1_0_0_1 : ScatterDims S150000x1 S2550000x1 S2550000x1 where
  updateWindowDims := [1]
  insertedWindowDims := [0]
  scatterDimsToOperandDims := [0]
  indexVectorDim := 1
  wf := scatter_S150000x1_S2550000x1_S2550000x1_1_0_0_1_wf

class Facts : Prop extends Facts₀ where

variable [Facts]
-- ==== Proof.KernelRun.lean ====
/-
  The idealized kernel program's run with its result named.

  The program is six tiled regions among four stretches of host operations. Every weakly fair execution from any memory
  terminates without a fault; the result array then holds what the last boundary of the fold through the program
  assigns to it (the last region's write-backs folded over its entry contents), and the eight argument arrays are as
  launched. The statement is for any float values; the value proof reads it at the ideal ones.
-/
import proofs.«179173_j6889127543167_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents and
    each argument array as launched. -/
theorem run_result : θ_run defs (onTc (τ := τ) (main (F := F))) ⟨m, fun _ => 0, ρ⟩ (fun r => ∀ c : Dev nD,
      r.2.mem ((c.tc : Thread nD τ).loc main_v70) = W10 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Hand

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.Region0.lean ====
/-
  Region 0: a matrix product computed in twenty-five blocks of 6000 rows.

  At each grid point the body multiplies a block of 6000 rows of the left matrix (128 columns) by the whole right matrix
  (128 × 32) into a zero accumulator and writes the 6000 × 32 result back as the same rows of the output. At the ideal
  values a change of float format is the identity and the accumulated product at an entry is the plain sum over the
  contracted coordinate, so block by block the output is the product of the two whole matrices: entry `(r, q)` is
  `∑ k, A (r, k) · B (k, q)`, the row `r = 6000 t + p` read through block `t`.
-/
import proofs.«179173_j6889127543167_1_alg».proof.Proof.Gen.KernelIdeal.Frame
import Idealize.ShloMosaic.Lib.Pipeline.Value
import Idealize.ShloMosaic.Lib.ValueIdx
import Idealize.ShloMosaic.Lib.StackMember
import proofs.«179173_j6889127543167_1_alg».proof.Proof.LibMatSum

set_option maxRecDepth 16384

noncomputable section

namespace Cert.KernelIdeal.Hand.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand and the output move one block of rows per point, the right
    operand stays at its one block. -/
theorem idx_facts : ∀ t : Fin cfg0.N, win0_0.index t (0 : Fin 2) = t.val ∧ win0_0.index t (1 : Fin 2) = 0
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- The product of the two whole matrices. -/
abbrev prod (A : FVec Ideal S150000x128 .f32) (B : FVec Ideal S128x32 .f32) : FVec Ideal S150000x32 .f32 :=
  Host.dotGeneral (F := Ideal) (DotDims.plain 150000 128 32) none A B

/-- The body's stored value at an entry: the sum over the contracted coordinate. -/
theorem pay_entry (x0 : Vec Ideal S6000x128 .f32) (x1 : Vec Ideal S128x32 .f32) (p : Fin 6000) (q : Fin 32) :
    k0_pay1 x0 x1 (ix2 p q) = ∑ k : Fin 128, x0 (ix2 p k) * x1 (ix2 k q) := by
  unfold k0_pay1
  refine (Idealize.ShloMosaic.MatSum.matmul_zero_entry _ none _ _ p q).trans ?_
  rfl

/-- The left operand's block at point `t` is rows `6000 t … 6000 t + 5999` of its array. -/
theorem blk0_apply (c : Dev nD) (t : Fin cfg0.N) (y : S6000x128.Idx) (z : S150000x128.Idx)
    (h0 : (z 0).val = t.val * 6000 + (y 0).val) (h1 : (z 1).val = (y 1).val) :
    (iblk0 V c 0 t : Vec Ideal S6000x128 .f32) y = (V c main_arg0 : FVec Ideal S150000x128 .f32) z := by
  obtain ⟨e0, e1, -, -, -⟩ := idx_facts t
  show (V c main_arg0 : FVec Ideal S150000x128 .f32) (((cfg0.win 0).blk t).view.emb y) = _
  refine congrArg _ (funext fun a => Fin.ext ?_)
  match a with
  | ⟨0, _⟩ => show win0_0.index t (0 : Fin 2) * 6000 + 1 * (y 0).val = (z 0).val; rw [e0, h0]; omega
  | ⟨1, _⟩ => show win0_0.index t (1 : Fin 2) * 128 + 1 * (y 1).val = (z 1).val; rw [e1, h1]; omega

/-- The right operand's one block is its whole array. -/
theorem blk1_apply (c : Dev nD) (t : Fin cfg0.N) (y : S128x32.Idx) :
    (iblk0 V c 1 t : Vec Ideal S128x32 .f32) y = (V c main_arg2 : FVec Ideal S128x32 .f32) y := by
  obtain ⟨-, -, ⟨e2, e3⟩, -, -⟩ := idx_facts t
  show (V c main_arg2 : FVec Ideal S128x32 .f32) (((cfg0.win 1).blk t).view.emb y) = _
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 32 + 1 * (y 1).val = (y 1).val; rw [e3]; omega

/-- The stored value at entry `j` of a block whose rows are rows `6000 T + ·` of `A` is the whole product at the
    corresponding entry `i`. -/
theorem block_entry (x0 : Vec Ideal S6000x128 .f32) (x1 : Vec Ideal S128x32 .f32)
    (A : FVec Ideal S150000x128 .f32) (B : FVec Ideal S128x32 .f32) (T : ℕ)
    (j : S6000x32.Idx) (i : S150000x32.Idx)
    (hi0 : (i 0).val = T * 6000 + (j 0).val) (hi1 : (i 1).val = (j 1).val)
    (hx0 : ∀ (y : S6000x128.Idx) (z : S150000x128.Idx), (z 0).val = T * 6000 + (y 0).val → (z 1).val = (y 1).val → x0 y = A z)
    (hx1 : ∀ y : S128x32.Idx, x1 y = B y) :
    k0_pay1 x0 x1 j = prod A B i := by
  obtain ⟨p, q, rfl⟩ : ∃ (p : Fin 6000) (q : Fin 32), j = ix2 p q := ⟨j 0, j 1, eq_ix2 j⟩
  obtain ⟨r, s, rfl⟩ : ∃ (r : Fin 150000) (s : Fin 32), i = ix2 r s := ⟨i 0, i 1, eq_ix2 i⟩
  have hs : s = q := Fin.ext hi1
  subst hs
  rw [pay_entry]
  refine (Finset.sum_congr rfl fun k _ => ?_).trans (Idealize.ShloMosaic.StackMember.dotGeneral_plain_apply none A B r s).symm
  rw [hx0 (ix2 p k) (ix2 r k) hi0 rfl, hx1]

/-- What point `t` writes back is block `t` of the whole product of the arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S6000x128) hz, View.ld_unit_zero (S := S128x32) hz]
  obtain ⟨-, -, -, e4, e5⟩ := idx_facts t
  funext j
  show k0_pay1 (iblk0 V c 0 t) (iblk0 V c 1 t) j = prod (V c main_arg0) (V c main_arg2) (((cfg0.win 2).blk t).view.emb j)
  exact block_entry (iblk0 V c 0 t) (iblk0 V c 1 t) (V c main_arg0) (V c main_arg2) t.val j (((cfg0.win 2).blk t).view.emb j)
    (by show win0_2.index t (0 : Fin 2) * 6000 + 1 * (j 0).val = _; rw [e4]; omega)
    (by show win0_2.index t (1 : Fin 2) * 32 + 1 * (j 1).val = _; rw [e5]; omega)
    (fun y z h0 h1 => blk0_apply V c t y z h0 h1) (fun y => blk1_apply V c t y)

/-- An index of the array is in point `t`'s block iff each coordinate is in the block's range on its axis. -/
theorem mem_blk (t : Fin cfg0.N) (i : S150000x32.Idx) :
    i ∈ ((cfg0.win 2).blk t).view.set ↔ ∀ a : Fin 2, win0_2.index t a * S6000x32.size a ≤ (i a).val ∧ (i a).val < win0_2.index t a * S6000x32.size a + S6000x32.size a := by
  show i ∈ ((View.whole main_v30).slice (win0_2.rect t)).set ↔ _
  rw [View.set_slice_whole, Rect.mem_set_unit]
  exact Iff.rfl

/-- Row `r` of the array lies in the block of point `r / 6000`: the twenty-five blocks of 6000 rows tile the 150000 rows. -/
theorem cover (i : S150000x32.Idx) : ∃ t : Fin cfg0.N, (cfg0.win 2).flush t = true ∧ i ∈ ((cfg0.win 2).blk t).view.set := by
  have hi0 : (i 0).val < 150000 := (i 0).isLt
  have hi1 : (i 1).val < 32 := (i 1).isLt
  have hlt : (i 0).val / 6000 < cfg0.N := by
    show _ < grid0.N
    rw [N_0]
    omega
  obtain ⟨t, ht⟩ : ∃ t : Fin cfg0.N, t.val = (i 0).val / 6000 := ⟨⟨_, hlt⟩, rfl⟩
  refine ⟨t, flush0_2 t, ?_⟩
  rw [mem_blk]
  obtain ⟨-, -, -, e4, e5⟩ := idx_facts t
  intro a
  match a with
  | ⟨0, _⟩ =>
    show win0_2.index t (0 : Fin 2) * 6000 ≤ (i 0).val ∧ (i 0).val < win0_2.index t (0 : Fin 2) * 6000 + 6000
    rw [e4, ht]
    omega
  | ⟨1, _⟩ =>
    show win0_2.index t (1 : Fin 2) * 32 ≤ (i 1).val ∧ (i 1).val < win0_2.index t (1 : Fin 2) * 32 + 32
    rw [e5]
    omega

/-- The array the region leaves is the product of the two arrays it was entered with. -/
theorem array_eq (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Hand.Region0

end
-- ==== Proof.LibHostRows.lean ====
/-
  Four readings at an index of host layout operations on matrices, for any extents.

  * A vector of `d` numbers made a `[1, d]` row and then repeated down `N` rows reads, at `(r, j)`, the vector at `j`.
  * The all-zero single-precision word held as a scalar and spread over any shape reads, everywhere, that word's value.
  * Two matrices with the same number of rows laid side by side read, at `(r, k)`, the left one at `(r, k)` when `k` is
    one of its columns and the right one at `(r, k - its width)` otherwise.
  * A column `[a, 1]` viewed as a row `[1, a]` reads, at `(u, i)`, the column at `(i, 0)`.
-/
import Idealize.ShloMosaic.PureOps.Ideal
import Idealize.ShloMosaic.Lib.ValueIdx
import Idealize.ShloMosaic.Lib.IdealHost
import Idealize.ShloMosaic.Lib.Pipeline.Value

noncomputable section

namespace Cert.Lib.HostRows

open Idealize.ShloMosaic Idealize.ShloMosaic.ValueIdx

variable {α : Type}

/-- A vector broadcast to one row and then to every row, at `(r, j)`: the vector at `j`. -/
theorem rowBias_apply {N d : ℕ} (b : (⟨1, ![d]⟩ : Shape).Idx → α)
    (h1 : (⟨1, ![d]⟩ : Shape).BroadcastsInDim ⟨2, ![1, d]⟩ ![1])
    (h2 : (⟨2, ![1, d]⟩ : Shape).BroadcastsInDim ⟨2, ![N, d]⟩ ![0, 1]) (r : Fin N) (j : Fin d) :
    broadcastInDim ⟨2, ![N, d]⟩ ![0, 1] h2 (broadcastInDim ⟨2, ![1, d]⟩ ![1] h1 b) (ix2 r j) = b (ix1 j) := by
  have hj : j.val = if d = 1 then 0 else j.val := by
    split
    · have := j.isLt; omega
    · rfl
  refine (broadcastInDim_apply _ h2 _ (ix2 r j) (ix2 (0 : Fin 1) j) (fun a => ?_)).trans
    (broadcastInDim_apply _ h1 b (ix2 (0 : Fin 1) j) (ix1 j) (fun a => ?_))
  · match a with
    | ⟨0, _⟩ => rfl
    | ⟨1, _⟩ => exact hj
  · match a with
    | ⟨0, _⟩ => exact hj

/-- The zero word as a scalar spread over a shape, anywhere: the word's value. -/
theorem zeroSplat_apply {T : Shape} (h : (⟨0, ![]⟩ : Shape).BroadcastsInDim T ![]) (i : T.Idx) :
    broadcastInDim T ![] h (constant (F := Ideal) ⟨0, ![]⟩ .f32 0x00000000#32) i = Ideal.ofBits .f32 0x00000000#32 := by
  rw [broadcastInDim_scalar_apply]
  rfl

/-- Two matrices side by side, at a column of the left one. -/
theorem sideBySide_left {N a b : ℕ} (x : (⟨2, ![N, a]⟩ : Shape).Idx → α) (y : (⟨2, ![N, b]⟩ : Shape).Idx → α)
    (h : Shape.Concatenates [⟨2, ![N, a]⟩, ⟨2, ![N, b]⟩] ⟨2, ![N, a + b]⟩ (1 : Fin 2)) (r : Fin N) (k : Fin a) :
    concatenate ⟨2, ![N, a + b]⟩ (1 : Fin 2) [⟨⟨2, ![N, a]⟩, x⟩, ⟨⟨2, ![N, b]⟩, y⟩] h
        (ix2 r ⟨k.val, by have := k.isLt; omega⟩) = x (ix2 r k) := by
  refine concatenate_pair_apply_left (t := ⟨2, ![N, a + b]⟩) (s₁ := ⟨2, ![N, a]⟩) (s₂ := ⟨2, ![N, b]⟩) _ x y h _ rfl (ix2 r k) (fun c => ?_)
  match c with
  | ⟨0, _⟩ => rfl
  | ⟨1, _⟩ => rfl

/-- Two matrices side by side, at a column of the right one. -/
theorem sideBySide_right {N a b : ℕ} (x : (⟨2, ![N, a]⟩ : Shape).Idx → α) (y : (⟨2, ![N, b]⟩ : Shape).Idx → α)
    (h : Shape.Concatenates [⟨2, ![N, a]⟩, ⟨2, ![N, b]⟩] ⟨2, ![N, a + b]⟩ (1 : Fin 2)) (r : Fin N) (k : Fin b) :
    concatenate ⟨2, ![N, a + b]⟩ (1 : Fin 2) [⟨⟨2, ![N, a]⟩, x⟩, ⟨⟨2, ![N, b]⟩, y⟩] h
        (ix2 r ⟨a + k.val, by have := k.isLt; omega⟩) = y (ix2 r k) := by
  refine concatenate_pair_apply_right (t := ⟨2, ![N, a + b]⟩) (s₁ := ⟨2, ![N, a]⟩) (s₂ := ⟨2, ![N, b]⟩) _ x y h _ rfl rfl (ix2 r k)
    (fun c hc => ?_) ?_
  · match c with
    | ⟨0, _⟩ => rfl
    | ⟨1, _⟩ => exact absurd rfl hc
  · show k.val + a = a + k.val
    omega

/-- A column viewed as a row, at `(u, i)`: the column at `(i, 0)`. -/
theorem columnAsRow_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

end Cert.Lib.HostRows

end
-- ==== Proof.LibLayer.lean ====
/-
  The elementwise tail of a dense layer read at an entry, at the ideal values, for any extents.

  * A vector of `n` numbers viewed as a one-row matrix and repeated down `a` rows reads, at `(i, j)`, the vector at `j`
    (also when `n = 1`).
  * A float word held as a scalar and spread over any shape reads, everywhere, that word's value.
  * Adding a bias vector to every row and taking the maximum with zero reads, at `(i, j)`, `max (x i j + b j) 0` — for
    the block form (casts and a repeated row, the zero a splatted scalar) and for the host form (two broadcasts of the
    bias, the zero word spread over the matrix) alike.
  * Adding a bias and applying `1 / (1 + exp (-v))` reads, at `(i, j)`, that expression of `x i j + b j` — for the
    block form, which writes the negative as `0 - v`, and for the host form, which negates; on the extended reals
    `0 - v = -v` for every `v`, the infinities included.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«179173_j6889127543167_1_alg».proof.Proof.LibHostRows

noncomputable section

namespace Cert.Lib.Layer

open Idealize.ShloMosaic Idealize.ShloMosaic.ValueIdx

/-- A vector viewed as a one-row matrix and repeated down the rows, at `(i, j)`: the vector at `j`. -/
theorem rowCast_entry {α : Type} {a n : ℕ} (z : (⟨1, ![n]⟩ : Shape).Idx → α)
    (hc : (⟨1, ![n]⟩ : Shape).ShapeCasts ⟨2, ![1, n]⟩) (hb : (⟨2, ![1, n]⟩ : Shape).Broadcasts ⟨2, ![a, n]⟩)
    (i : Fin a) (j : Fin n) :
    broadcastTo ⟨2, ![a, n]⟩ (shapeCast ⟨2, ![1, n]⟩ z hc) hb (ix2 i j) = z (ix1 j) := by
  have hj : j.val = if n = 1 then 0 else j.val := by
    split
    · have := j.isLt; omega
    · rfl
  refine (broadcastTo_apply _ hb (ix2 i j) (ix2 (0 : Fin 1) j) (fun ax => match ax with
    | ⟨0, _⟩ => by show 0 = if (1 : ℕ) = 1 then 0 else i.val; rw [if_pos rfl]
    | ⟨1, _⟩ => hj)).trans ?_
  exact shapeCast_apply z hc _ _ (by
    rw [Shape.rowMajor_val_two, Shape.rowMajor_val_one]
    show j.val = 0 * n + j.val
    omega)

/-- A float word as a scalar spread over a shape, anywhere: the word's value. -/
theorem splat_apply {T : Shape} (w : BitVec 32) (h : (⟨0, ![]⟩ : Shape).BroadcastsInDim T ![]) (i : T.Idx) :
    broadcastInDim T ![] h (constant (F := Ideal) ⟨0, ![]⟩ .f32 w) i = Ideal.ofBits .f32 w := by
  rw [broadcastInDim_scalar_apply]
  rfl

/-- On the extended reals zero minus a number is its negative. -/
theorem zero_sub_eq_neg (x : EReal) : (0 : EReal) - x = -x := by rw [sub_eq_add_neg, zero_add]

variable {a n : ℕ}

/-- A block with a bias row added and the maximum with zero taken, at `(i, j)`. -/
theorem blockBiasRelu_entry (x : FVec Ideal ⟨2, ![a, n]⟩ .f32) (b : FVec Ideal ⟨1, ![n]⟩ .f32)
    (hs : (⟨2, ![a, n]⟩ : Shape).ShapeCasts ⟨2, ![a, n]⟩)
    (hc : (⟨1, ![n]⟩ : Shape).ShapeCasts ⟨2, ![1, n]⟩) (hb : (⟨2, ![1, n]⟩ : Shape).Broadcasts ⟨2, ![a, n]⟩)
    (i : Fin a) (j : Fin n) :
    maximumf (addf (shapeCast ⟨2, ![a, n]⟩ x hs) (broadcastTo ⟨2, ![a, n]⟩ (shapeCast ⟨2, ![1, n]⟩ b hc) hb))
        (broadcast ⟨2, ![a, n]⟩ (Scalar.ofBits (F := Ideal) .f32 0x00000000#32)) (ix2 i j)
      = max (x (ix2 i j) + b (ix1 j)) 0 := by
  show max (shapeCast ⟨2, ![a, n]⟩ x hs (ix2 i j) + broadcastTo ⟨2, ![a, n]⟩ (shapeCast ⟨2, ![1, n]⟩ b hc) hb (ix2 i j))
      (Ideal.ofBits .f32 0x00000000#32) = _
  rw [shapeCast_self, rowCast_entry, Ideal.ofBits_zero_f32]

/-- A matrix with a bias vector broadcast to every row added and the maximum with the spread zero word taken, at `(r, j)`. -/
theorem hostBiasRelu_entry {N : ℕ} (X : FVec Ideal ⟨2, ![N, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![N, n]⟩ ![0, 1])
    (h0 : (⟨0, ![]⟩ : Shape).BroadcastsInDim ⟨2, ![N, n]⟩ ![]) (r : Fin N) (j : Fin n) :
    maximumf (addf X (broadcastInDim ⟨2, ![N, n]⟩ ![0, 1] h2 (broadcastInDim ⟨2, ![1, n]⟩ ![1] h1 b)))
        (broadcastInDim ⟨2, ![N, n]⟩ ![] h0 (constant (F := Ideal) ⟨0, ![]⟩ .f32 0x00000000#32)) (ix2 r j)
      = max (X (ix2 r j) + b (ix1 j)) 0 := by
  show max (X (ix2 r j) + broadcastInDim ⟨2, ![N, n]⟩ ![0, 1] h2 (broadcastInDim ⟨2, ![1, n]⟩ ![1] h1 b) (ix2 r j))
      (broadcastInDim ⟨2, ![N, n]⟩ ![] h0 (constant (F := Ideal) ⟨0, ![]⟩ .f32 0x00000000#32) (ix2 r j)) = _
  rw [Cert.Lib.HostRows.rowBias_apply, splat_apply, Ideal.ofBits_zero_f32]

/-- The logistic expression of a number, with the literal one kept as its word's value. -/
def logisticOf (v : EReal) : EReal :=
  Ideal.div (Ideal.ofBits .f32 0x3F800000#32) (Ideal.ofBits .f32 0x3F800000#32 + Ideal.exp (-v))

/-- A block with a bias row added and `1 / (1 + exp (0 - v))` applied, at `(i, j)`. -/
theorem blockBiasLogistic_entry (x : FVec Ideal ⟨2, ![a, n]⟩ .f32) (b : FVec Ideal ⟨1, ![n]⟩ .f32)
    (hs : (⟨2, ![a, n]⟩ : Shape).ShapeCasts ⟨2, ![a, n]⟩)
    (hc : (⟨1, ![n]⟩ : Shape).ShapeCasts ⟨2, ![1, n]⟩) (hb : (⟨2, ![1, n]⟩ : Shape).Broadcasts ⟨2, ![a, n]⟩)
    (i : Fin a) (j : Fin n) :
    divf (broadcast ⟨2, ![a, n]⟩ (Scalar.ofBits (F := Ideal) .f32 0x3F800000#32))
        (addf (broadcast ⟨2, ![a, n]⟩ (Scalar.ofBits (F := Ideal) .f32 0x3F800000#32))
          (exp (subf (broadcast ⟨2, ![a, n]⟩ (Scalar.ofBits (F := Ideal) .f32 0x00000000#32))
            (addf (shapeCast ⟨2, ![a, n]⟩ x hs) (broadcastTo ⟨2, ![a, n]⟩ (shapeCast ⟨2, ![1, n]⟩ b hc) hb))))) (ix2 i j)
      = logisticOf (x (ix2 i j) + b (ix1 j)) := by
  show Ideal.div (Ideal.ofBits .f32 0x3F800000#32) (Ideal.ofBits .f32 0x3F800000#32
      + Ideal.exp (Ideal.ofBits .f32 0x00000000#32
        - (shapeCast ⟨2, ![a, n]⟩ x hs (ix2 i j) + broadcastTo ⟨2, ![a, n]⟩ (shapeCast ⟨2, ![1, n]⟩ b hc) hb (ix2 i j)))) = _
  rw [shapeCast_self, rowCast_entry, Ideal.ofBits_zero_f32, zero_sub_eq_neg]
  rfl

/-- A matrix with a bias vector broadcast to every row added and `1 / (1 + exp (-v))` applied, at `(r, j)`. -/
theorem hostBiasLogistic_entry {N : ℕ} (X : FVec Ideal ⟨2, ![N, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![N, n]⟩ ![0, 1])
    (h0 h0' : (⟨0, ![]⟩ : Shape).BroadcastsInDim ⟨2, ![N, n]⟩ ![]) (r : Fin N) (j : Fin n) :
    Host.divf (broadcastInDim ⟨2, ![N, n]⟩ ![] h0 (constant (F := Ideal) ⟨0, ![]⟩ .f32 0x3F800000#32))
        (addf (broadcastInDim ⟨2, ![N, n]⟩ ![] h0' (constant (F := Ideal) ⟨0, ![]⟩ .f32 0x3F800000#32))
          (Host.exp (Host.negf (addf X (broadcastInDim ⟨2, ![N, n]⟩ ![0, 1] h2 (broadcastInDim ⟨2, ![1, n]⟩ ![1] h1 b)))))) (ix2 r j)
      = logisticOf (X (ix2 r j) + b (ix1 j)) := by
  show Ideal.div (broadcastInDim ⟨2, ![N, n]⟩ ![] h0 (constant (F := Ideal) ⟨0, ![]⟩ .f32 0x3F800000#32) (ix2 r j))
      (broadcastInDim ⟨2, ![N, n]⟩ ![] h0' (constant (F := Ideal) ⟨0, ![]⟩ .f32 0x3F800000#32) (ix2 r j)
        + Ideal.exp (-(X (ix2 r j) + broadcastInDim ⟨2, ![N, n]⟩ ![0, 1] h2 (broadcastInDim ⟨2, ![1, n]⟩ ![1] h1 b) (ix2 r j)))) = _
  rw [Cert.Lib.HostRows.rowBias_apply, splat_apply]
  rfl

end Cert.Lib.Layer

end
-- ==== Proof.Region1.lean ====
/-
  Region 1: a bias added to every row and the maximum with zero taken, in twenty-five blocks of 6000 rows.

  At each grid point the body reads a block of 6000 rows (32 columns) and the whole bias vector, adds the bias to every
  row, applies the activation entry by entry and writes the block back as the same rows of the output. Every entry of the
  output depends on the one entry of the input at the same place and on the bias at its column, so block by block the
  output is the host's whole-matrix expression of the two arrays.
-/
import proofs.«179173_j6889127543167_1_alg».proof.Proof.Gen.KernelIdeal.Frame
import Idealize.ShloMosaic.Lib.Pipeline.Value
import Idealize.ShloMosaic.Lib.ValueIdx
import proofs.«179173_j6889127543167_1_alg».proof.Proof.LibLayer

set_option maxRecDepth 16384

noncomputable section

namespace Cert.KernelIdeal.Hand.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the input and the output move one block of rows per point, the bias stays at
    its one block. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The host's whole-matrix expression: the bias broadcast to one row and then to every row, added, the activation applied. -/
abbrev biasRelu (X : FVec Ideal S150000x32 .f32) (b : FVec Ideal S32 .f32)
    (h1 : (⟨1, ![32]⟩ : Shape).BroadcastsInDim ⟨2, ![1, 32]⟩ ![1])
    (h2 : (⟨2, ![1, 32]⟩ : Shape).BroadcastsInDim ⟨2, ![150000, 32]⟩ ![0, 1])
    (h0 : (⟨0, ![]⟩ : Shape).BroadcastsInDim ⟨2, ![150000, 32]⟩ ![]) : FVec Ideal S150000x32 .f32 :=
  maximumf (F := Ideal) (addf X (broadcastInDim ⟨2, ![150000, 32]⟩ ![0, 1] h2 (broadcastInDim ⟨2, ![1, 32]⟩ ![1] h1 b)))
    (broadcastInDim ⟨2, ![150000, 32]⟩ ![] h0 (constant (F := Ideal) ⟨0, ![]⟩ .f32 0x00000000#32))

/-- The body's stored value at an entry. -/
theorem pay_entry (x0 : Vec Ideal S6000x32 .f32) (x1 : Vec Ideal S32 .f32) (p : Fin 6000) (q : Fin 32) :
    k1_pay1 x0 x1 (ix2 p q) = max (x0 (ix2 p q) + x1 (ix1 q)) 0 := by
  unfold k1_pay1
  exact Cert.Lib.Layer.blockBiasRelu_entry x0 x1 _ _ _ p q

/-- The input's block at point `t` is rows `6000 t … 6000 t + 5999` of its array. -/
theorem blk0_apply (c : Dev nD) (t : Fin cfg1.N) (y : S6000x32.Idx) (z : S150000x32.Idx)
    (h0 : (z 0).val = t.val * 6000 + (y 0).val) (h1 : (z 1).val = (y 1).val) :
    (iblk1 V c 0 t : Vec Ideal S6000x32 .f32) y = (V c main_v42 : FVec Ideal S150000x32 .f32) z := by
  obtain ⟨e0, e1, -, -, -⟩ := idx_facts t
  show (V c main_v42 : FVec Ideal S150000x32 .f32) (((cfg1.win 0).blk t).view.emb y) = _
  refine congrArg _ (funext fun a => Fin.ext ?_)
  match a with
  | ⟨0, _⟩ => show win1_0.index t (0 : Fin 2) * 6000 + 1 * (y 0).val = (z 0).val; rw [e0, h0]; omega
  | ⟨1, _⟩ => show win1_0.index t (1 : Fin 2) * 32 + 1 * (y 1).val = (z 1).val; rw [e1, h1]; omega

/-- The bias's one block is its whole array. -/
theorem blk1_apply (c : Dev nD) (t : Fin cfg1.N) (y : S32.Idx) :
    (iblk1 V c 1 t : Vec Ideal S32 .f32) y = (V c main_arg3 : FVec Ideal S32 .f32) y := by
  obtain ⟨-, -, e2, -, -⟩ := idx_facts t
  show (V c main_arg3 : FVec Ideal S32 .f32) (((cfg1.win 1).blk t).view.emb y) = _
  refine congrArg _ (funext fun a => Fin.ext ?_)
  match a with
  | ⟨0, _⟩ => show win1_1.index t (0 : Fin 1) * 32 + 1 * (y 0).val = (y 0).val; rw [e2]; omega

/-- The stored value at entry `j` of a block is the host's expression at the corresponding entry `i` of the whole matrix. -/
theorem block_entry (x0 : Vec Ideal S6000x32 .f32) (x1 : Vec Ideal S32 .f32)
    (X : FVec Ideal S150000x32 .f32) (b : FVec Ideal S32 .f32)
    (h1 : (⟨1, ![32]⟩ : Shape).BroadcastsInDim ⟨2, ![1, 32]⟩ ![1])
    (h2 : (⟨2, ![1, 32]⟩ : Shape).BroadcastsInDim ⟨2, ![150000, 32]⟩ ![0, 1])
    (h0 : (⟨0, ![]⟩ : Shape).BroadcastsInDim ⟨2, ![150000, 32]⟩ ![])
    (j : S6000x32.Idx) (i : S150000x32.Idx)
    (hi1 : (i 1).val = (j 1).val) (hx0 : x0 j = X i) (hx1 : ∀ y : S32.Idx, x1 y = b y) :
    k1_pay1 x0 x1 j = biasRelu X b h1 h2 h0 i := by
  obtain ⟨p, q, rfl⟩ : ∃ (p : Fin 6000) (q : Fin 32), j = ix2 p q := ⟨j 0, j 1, eq_ix2 j⟩
  obtain ⟨r, s, rfl⟩ : ∃ (r : Fin 150000) (s : Fin 32), i = ix2 r s := ⟨i 0, i 1, eq_ix2 i⟩
  have hs : s = q := Fin.ext hi1
  subst hs
  rw [pay_entry]
  refine Eq.trans ?_ (Cert.Lib.Layer.hostBiasRelu_entry X b h1 h2 h0 r s).symm
  rw [hx0, hx1]

/-- What point `t` writes back is block `t` of the host's expression of the arrays as the region finds them. -/
theorem flushed_eq (c : Dev nD)
    (h1 : (⟨1, ![32]⟩ : Shape).BroadcastsInDim ⟨2, ![1, 32]⟩ ![1])
    (h2 : (⟨2, ![1, 32]⟩ : Shape).BroadcastsInDim ⟨2, ![150000, 32]⟩ ![0, 1])
    (h0 : (⟨0, ![]⟩ : Shape).BroadcastsInDim ⟨2, ![150000, 32]⟩ ![]) (t : Fin cfg1.N) :
    (dat1 V c).flushed 2 t = ((cfg1.win 2).blk t).view.read (Elt Ideal) (biasRelu (V c main_v42) (V c main_arg3) h1 h2 h0) := by
  show (cfg1.win 2).cut (grid1.coords t) ((dat1 V c).after 2 t) = _
  rw [after1_2]
  unfold out1_2
  rw [View.canon_unit_zero hz]
  simp only [View.ld_unit_zero (S := S6000x32) hz, View.ld_unit_zero (S := S32) hz1]
  obtain ⟨-, -, -, e4, e5⟩ := idx_facts t
  funext j
  show k1_pay1 (iblk1 V c 0 t) (iblk1 V c 1 t) j = biasRelu (V c main_v42) (V c main_arg3) h1 h2 h0 (((cfg1.win 2).blk t).view.emb j)
  exact block_entry (iblk1 V c 0 t) (iblk1 V c 1 t) (V c main_v42) (V c main_arg3) h1 h2 h0 j (((cfg1.win 2).blk t).view.emb j)
    (by show win1_2.index t (1 : Fin 2) * 32 + 1 * (j 1).val = _; rw [e5]; omega)
    (blk0_apply V c t j _ (by show win1_2.index t (0 : Fin 2) * 6000 + 1 * (j 0).val = _; rw [e4]; omega)
      (by show win1_2.index t (1 : Fin 2) * 32 + 1 * (j 1).val = _; rw [e5]; omega))
    (fun y => blk1_apply V c t y)

/-- An index of the array is in point `t`'s block iff each coordinate is in the block's range on its axis. -/
theorem mem_blk (t : Fin cfg1.N) (i : S150000x32.Idx) :
    i ∈ ((cfg1.win 2).blk t).view.set ↔ ∀ a : Fin 2, win1_2.index t a * S6000x32.size a ≤ (i a).val ∧ (i a).val < win1_2.index t a * S6000x32.size a + S6000x32.size a := by
  show i ∈ ((View.whole main_v43).slice (win1_2.rect t)).set ↔ _
  rw [View.set_slice_whole, Rect.mem_set_unit]
  exact Iff.rfl

/-- Row `r` of the array lies in the block of point `r / 6000`: the twenty-five blocks of 6000 rows tile the 150000 rows. -/
theorem cover (i : S150000x32.Idx) : ∃ t : Fin cfg1.N, (cfg1.win 2).flush t = true ∧ i ∈ ((cfg1.win 2).blk t).view.set := by
  have hi0 : (i 0).val < 150000 := (i 0).isLt
  have hi1 : (i 1).val < 32 := (i 1).isLt
  have hlt : (i 0).val / 6000 < cfg1.N := by
    show _ < grid1.N
    rw [N_1]
    omega
  obtain ⟨t, ht⟩ : ∃ t : Fin cfg1.N, t.val = (i 0).val / 6000 := ⟨⟨_, hlt⟩, rfl⟩
  refine ⟨t, flush1_2 t, ?_⟩
  rw [mem_blk]
  obtain ⟨-, -, -, e4, e5⟩ := idx_facts t
  intro a
  match a with
  | ⟨0, _⟩ =>
    show win1_2.index t (0 : Fin 2) * 6000 ≤ (i 0).val ∧ (i 0).val < win1_2.index t (0 : Fin 2) * 6000 + 6000
    rw [e4, ht]
    omega
  | ⟨1, _⟩ =>
    show win1_2.index t (1 : Fin 2) * 32 ≤ (i 1).val ∧ (i 1).val < win1_2.index t (1 : Fin 2) * 32 + 32
    rw [e5]
    omega

/-- The array the region leaves is the host's expression of the two arrays it was entered with. -/
theorem array_eq (c : Dev nD)
    (h1 : (⟨1, ![32]⟩ : Shape).BroadcastsInDim ⟨2, ![1, 32]⟩ ![1])
    (h2 : (⟨2, ![1, 32]⟩ : Shape).BroadcastsInDim ⟨2, ![150000, 32]⟩ ![0, 1])
    (h0 : (⟨0, ![]⟩ : Shape).BroadcastsInDim ⟨2, ![150000, 32]⟩ ![]) :
    (dat1 V c).arrAt 2 cfg1.N = biasRelu (V c main_v42) (V c main_arg3) h1 h2 h0 :=
  (dat1 V c).arrAt_eq_of_cover 2 (biasRelu (V c main_v42) (V c main_arg3) h1 h2 h0) (fun t _ => flushed_eq V c h1 h2 h0 t) cover

end Cert.KernelIdeal.Hand.Region1

end
-- ==== Proof.Region2.lean ====
/-
  Region 2: a matrix product computed in twenty-five blocks of 6000 rows.

  At each grid point the body multiplies a block of 6000 rows of the left matrix (32 columns) by the whole right matrix
  (32 × 32) into a zero accumulator and writes the 6000 × 32 result back as the same rows of the output. At the ideal
  values a change of float format is the identity and the accumulated product at an entry is the plain sum over the
  contracted coordinate, so block by block the output is the product of the two whole matrices: entry `(r, q)` is
  `∑ k, A (r, k) · B (k, q)`, the row `r = 6000 t + p` read through block `t`.
-/
import proofs.«179173_j6889127543167_1_alg».proof.Proof.Gen.KernelIdeal.Frame
import Idealize.ShloMosaic.Lib.Pipeline.Value
import Idealize.ShloMosaic.Lib.ValueIdx
import Idealize.ShloMosaic.Lib.StackMember
import proofs.«179173_j6889127543167_1_alg».proof.Proof.LibMatSum

set_option maxRecDepth 16384

noncomputable section

namespace Cert.KernelIdeal.Hand.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand and the output move one block of rows per point, the right
    operand stays at its one block. -/
theorem idx_facts : ∀ t : Fin cfg2.N, win2_0.index t (0 : Fin 2) = t.val ∧ win2_0.index t (1 : Fin 2) = 0
    ∧ (win2_1.index t (0 : Fin 2) = 0 ∧ win2_1.index t (1 : Fin 2) = 0)
    ∧ win2_2.index t (0 : Fin 2) = t.val ∧ win2_2.index t (1 : Fin 2) = 0 :=
  (by decide +kernel : ∀ t : Fin grid2.N, _)

/-- The product of the two whole matrices. -/
abbrev prod (A : FVec Ideal S150000x32 .f32) (B : FVec Ideal S32x32 .f32) : FVec Ideal S150000x32 .f32 :=
  Host.dotGeneral (F := Ideal) (DotDims.plain 150000 32 32) none A B

/-- The body's stored value at an entry: the sum over the contracted coordinate. -/
theorem pay_entry (x0 : Vec Ideal S6000x32 .f32) (x1 : Vec Ideal S32x32 .f32) (p : Fin 6000) (q : Fin 32) :
    k2_pay1 x0 x1 (ix2 p q) = ∑ k : Fin 32, x0 (ix2 p k) * x1 (ix2 k q) := by
  unfold k2_pay1
  refine (Idealize.ShloMosaic.MatSum.matmul_zero_entry _ none _ _ p q).trans ?_
  rw [shapeCast_self]
  rfl

/-- The left operand's block at point `t` is rows `6000 t … 6000 t + 5999` of its array. -/
theorem blk0_apply (c : Dev nD) (t : Fin cfg2.N) (y : S6000x32.Idx) (z : S150000x32.Idx)
    (h0 : (z 0).val = t.val * 6000 + (y 0).val) (h1 : (z 1).val = (y 1).val) :
    (iblk2 V c 0 t : Vec Ideal S6000x32 .f32) y = (V c main_v43 : FVec Ideal S150000x32 .f32) z := by
  obtain ⟨e0, e1, -, -, -⟩ := idx_facts t
  show (V c main_v43 : FVec Ideal S150000x32 .f32) (((cfg2.win 0).blk t).view.emb y) = _
  refine congrArg _ (funext fun a => Fin.ext ?_)
  match a with
  | ⟨0, _⟩ => show win2_0.index t (0 : Fin 2) * 6000 + 1 * (y 0).val = (z 0).val; rw [e0, h0]; omega
  | ⟨1, _⟩ => show win2_0.index t (1 : Fin 2) * 32 + 1 * (y 1).val = (z 1).val; rw [e1, h1]; omega

/-- The right operand's one block is its whole array. -/
theorem blk1_apply (c : Dev nD) (t : Fin cfg2.N) (y : S32x32.Idx) :
    (iblk2 V c 1 t : Vec Ideal S32x32 .f32) y = (V c main_arg4 : FVec Ideal S32x32 .f32) y := by
  obtain ⟨-, -, ⟨e2, e3⟩, -, -⟩ := idx_facts t
  show (V c main_arg4 : FVec Ideal S32x32 .f32) (((cfg2.win 1).blk t).view.emb y) = _
  refine congrArg _ (funext fun a => Fin.ext ?_)
  match a with
  | ⟨0, _⟩ => show win2_1.index t (0 : Fin 2) * 32 + 1 * (y 0).val = (y 0).val; rw [e2]; omega
  | ⟨1, _⟩ => show win2_1.index t (1 : Fin 2) * 32 + 1 * (y 1).val = (y 1).val; rw [e3]; omega

/-- The stored value at entry `j` of a block whose rows are rows `6000 T + ·` of `A` is the whole product at the
    corresponding entry `i`. -/
theorem block_entry (x0 : Vec Ideal S6000x32 .f32) (x1 : Vec Ideal S32x32 .f32)
    (A : FVec Ideal S150000x32 .f32) (B : FVec Ideal S32x32 .f32) (T : ℕ)
    (j : S6000x32.Idx) (i : S150000x32.Idx)
    (hi0 : (i 0).val = T * 6000 + (j 0).val) (hi1 : (i 1).val = (j 1).val)
    (hx0 : ∀ (y : S6000x32.Idx) (z : S150000x32.Idx), (z 0).val = T * 6000 + (y 0).val → (z 1).val = (y 1).val → x0 y = A z)
    (hx1 : ∀ y : S32x32.Idx, x1 y = B y) :
    k2_pay1 x0 x1 j = prod A B i := by
  obtain ⟨p, q, rfl⟩ : ∃ (p : Fin 6000) (q : Fin 32), j = ix2 p q := ⟨j 0, j 1, eq_ix2 j⟩
  obtain ⟨r, s, rfl⟩ : ∃ (r : Fin 150000) (s : Fin 32), i = ix2 r s := ⟨i 0, i 1, eq_ix2 i⟩
  have hs : s = q := Fin.ext hi1
  subst hs
  rw [pay_entry]
  refine (Finset.sum_congr rfl fun k _ => ?_).trans (Idealize.ShloMosaic.StackMember.dotGeneral_plain_apply none A B r s).symm
  rw [hx0 (ix2 p k) (ix2 r k) hi0 rfl, hx1]

/-- What point `t` writes back is block `t` of the whole product of the arrays as the region finds them. -/
theorem flushed_eq (c : Dev nD) (t : Fin cfg2.N) :
    (dat2 V c).flushed 2 t = ((cfg2.win 2).blk t).view.read (Elt Ideal) (prod (V c main_v43) (V c main_arg4)) := by
  show (cfg2.win 2).cut (grid2.coords t) ((dat2 V c).after 2 t) = _
  rw [after2_2]
  unfold out2_2
  rw [View.canon_unit_zero hz]
  simp only [View.ld_unit_zero (S := S6000x32) hz, View.ld_unit_zero (S := S32x32) hz]
  obtain ⟨-, -, -, e4, e5⟩ := idx_facts t
  funext j
  show k2_pay1 (iblk2 V c 0 t) (iblk2 V c 1 t) j = prod (V c main_v43) (V c main_arg4) (((cfg2.win 2).blk t).view.emb j)
  exact block_entry (iblk2 V c 0 t) (iblk2 V c 1 t) (V c main_v43) (V c main_arg4) t.val j (((cfg2.win 2).blk t).view.emb j)
    (by show win2_2.index t (0 : Fin 2) * 6000 + 1 * (j 0).val = _; rw [e4]; omega)
    (by show win2_2.index t (1 : Fin 2) * 32 + 1 * (j 1).val = _; rw [e5]; omega)
    (fun y z h0 h1 => blk0_apply V c t y z h0 h1) (fun y => blk1_apply V c t y)

/-- An index of the array is in point `t`'s block iff each coordinate is in the block's range on its axis. -/
theorem mem_blk (t : Fin cfg2.N) (i : S150000x32.Idx) :
    i ∈ ((cfg2.win 2).blk t).view.set ↔ ∀ a : Fin 2, win2_2.index t a * S6000x32.size a ≤ (i a).val ∧ (i a).val < win2_2.index t a * S6000x32.size a + S6000x32.size a := by
  show i ∈ ((View.whole main_v44).slice (win2_2.rect t)).set ↔ _
  rw [View.set_slice_whole, Rect.mem_set_unit]
  exact Iff.rfl

/-- Row `r` of the array lies in the block of point `r / 6000`: the twenty-five blocks of 6000 rows tile the 150000 rows. -/
theorem cover (i : S150000x32.Idx) : ∃ t : Fin cfg2.N, (cfg2.win 2).flush t = true ∧ i ∈ ((cfg2.win 2).blk t).view.set := by
  have hi0 : (i 0).val < 150000 := (i 0).isLt
  have hi1 : (i 1).val < 32 := (i 1).isLt
  have hlt : (i 0).val / 6000 < cfg2.N := by
    show _ < grid2.N
    rw [N_2]
    omega
  obtain ⟨t, ht⟩ : ∃ t : Fin cfg2.N, t.val = (i 0).val / 6000 := ⟨⟨_, hlt⟩, rfl⟩
  refine ⟨t, flush2_2 t, ?_⟩
  rw [mem_blk]
  obtain ⟨-, -, -, e4, e5⟩ := idx_facts t
  intro a
  match a with
  | ⟨0, _⟩ =>
    show win2_2.index t (0 : Fin 2) * 6000 ≤ (i 0).val ∧ (i 0).val < win2_2.index t (0 : Fin 2) * 6000 + 6000
    rw [e4, ht]
    omega
  | ⟨1, _⟩ =>
    show win2_2.index t (1 : Fin 2) * 32 ≤ (i 1).val ∧ (i 1).val < win2_2.index t (1 : Fin 2) * 32 + 32
    rw [e5]
    omega

/-- The array the region leaves is the product of the two arrays it was entered with. -/
theorem array_eq (c : Dev nD) : (dat2 V c).arrAt 2 cfg2.N = prod (V c main_v43) (V c main_arg4) :=
  (dat2 V c).arrAt_eq_of_cover 2 (prod (V c main_v43) (V c main_arg4)) (fun t _ => flushed_eq V c t) cover

end Cert.KernelIdeal.Hand.Region2

end
-- ==== Proof.Region3.lean ====
/-
  Region 3: a bias added to every row and the maximum with zero taken, in twenty-five blocks of 6000 rows.

  At each grid point the body reads a block of 6000 rows (32 columns) and the whole bias vector, adds the bias to every
  row, applies the activation entry by entry and writes the block back as the same rows of the output. Every entry of the
  output depends on the one entry of the input at the same place and on the bias at its column, so block by block the
  output is the host's whole-matrix expression of the two arrays.
-/
import proofs.«179173_j6889127543167_1_alg».proof.Proof.Gen.KernelIdeal.Frame
import Idealize.ShloMosaic.Lib.Pipeline.Value
import Idealize.ShloMosaic.Lib.ValueIdx
import proofs.«179173_j6889127543167_1_alg».proof.Proof.LibLayer

set_option maxRecDepth 16384

noncomputable section

namespace Cert.KernelIdeal.Hand.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the input and the output move one block of rows per point, the bias stays at
    its one block. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The host's whole-matrix expression: the bias broadcast to one row and then to every row, added, the activation applied. -/
abbrev biasRelu (X : FVec Ideal S150000x32 .f32) (b : FVec Ideal S32 .f32)
    (h1 : (⟨1, ![32]⟩ : Shape).BroadcastsInDim ⟨2, ![1, 32]⟩ ![1])
    (h2 : (⟨2, ![1, 32]⟩ : Shape).BroadcastsInDim ⟨2, ![150000, 32]⟩ ![0, 1])
    (h0 : (⟨0, ![]⟩ : Shape).BroadcastsInDim ⟨2, ![150000, 32]⟩ ![]) : FVec Ideal S150000x32 .f32 :=
  maximumf (F := Ideal) (addf X (broadcastInDim ⟨2, ![150000, 32]⟩ ![0, 1] h2 (broadcastInDim ⟨2, ![1, 32]⟩ ![1] h1 b)))
    (broadcastInDim ⟨2, ![150000, 32]⟩ ![] h0 (constant (F := Ideal) ⟨0, ![]⟩ .f32 0x00000000#32))

/-- The body's stored value at an entry. -/
theorem pay_entry (x0 : Vec Ideal S6000x32 .f32) (x1 : Vec Ideal S32 .f32) (p : Fin 6000) (q : Fin 32) :
    k3_pay1 x0 x1 (ix2 p q) = max (x0 (ix2 p q) + x1 (ix1 q)) 0 := by
  unfold k3_pay1
  exact Cert.Lib.Layer.blockBiasRelu_entry x0 x1 _ _ _ p q

/-- The input's block at point `t` is rows `6000 t … 6000 t + 5999` of its array. -/
theorem blk0_apply (c : Dev nD) (t : Fin cfg3.N) (y : S6000x32.Idx) (z : S150000x32.Idx)
    (h0 : (z 0).val = t.val * 6000 + (y 0).val) (h1 : (z 1).val = (y 1).val) :
    (iblk3 V c 0 t : Vec Ideal S6000x32 .f32) y = (V c main_v56 : FVec Ideal S150000x32 .f32) z := by
  obtain ⟨e0, e1, -, -, -⟩ := idx_facts t
  show (V c main_v56 : FVec Ideal S150000x32 .f32) (((cfg3.win 0).blk t).view.emb y) = _
  refine congrArg _ (funext fun a => Fin.ext ?_)
  match a with
  | ⟨0, _⟩ => show win3_0.index t (0 : Fin 2) * 6000 + 1 * (y 0).val = (z 0).val; rw [e0, h0]; omega
  | ⟨1, _⟩ => show win3_0.index t (1 : Fin 2) * 32 + 1 * (y 1).val = (z 1).val; rw [e1, h1]; omega

/-- The bias's one block is its whole array. -/
theorem blk1_apply (c : Dev nD) (t : Fin cfg3.N) (y : S32.Idx) :
    (iblk3 V c 1 t : Vec Ideal S32 .f32) y = (V c main_arg5 : FVec Ideal S32 .f32) y := by
  obtain ⟨-, -, e2, -, -⟩ := idx_facts t
  show (V c main_arg5 : FVec Ideal S32 .f32) (((cfg3.win 1).blk t).view.emb y) = _
  refine congrArg _ (funext fun a => Fin.ext ?_)
  match a with
  | ⟨0, _⟩ => show win3_1.index t (0 : Fin 1) * 32 + 1 * (y 0).val = (y 0).val; rw [e2]; omega

/-- The stored value at entry `j` of a block is the host's expression at the corresponding entry `i` of the whole matrix. -/
theorem block_entry (x0 : Vec Ideal S6000x32 .f32) (x1 : Vec Ideal S32 .f32)
    (X : FVec Ideal S150000x32 .f32) (b : FVec Ideal S32 .f32)
    (h1 : (⟨1, ![32]⟩ : Shape).BroadcastsInDim ⟨2, ![1, 32]⟩ ![1])
    (h2 : (⟨2, ![1, 32]⟩ : Shape).BroadcastsInDim ⟨2, ![150000, 32]⟩ ![0, 1])
    (h0 : (⟨0, ![]⟩ : Shape).BroadcastsInDim ⟨2, ![150000, 32]⟩ ![])
    (j : S6000x32.Idx) (i : S150000x32.Idx)
    (hi1 : (i 1).val = (j 1).val) (hx0 : x0 j = X i) (hx1 : ∀ y : S32.Idx, x1 y = b y) :
    k3_pay1 x0 x1 j = biasRelu X b h1 h2 h0 i := by
  obtain ⟨p, q, rfl⟩ : ∃ (p : Fin 6000) (q : Fin 32), j = ix2 p q := ⟨j 0, j 1, eq_ix2 j⟩
  obtain ⟨r, s, rfl⟩ : ∃ (r : Fin 150000) (s : Fin 32), i = ix2 r s := ⟨i 0, i 1, eq_ix2 i⟩
  have hs : s = q := Fin.ext hi1
  subst hs
  rw [pay_entry]
  refine Eq.trans ?_ (Cert.Lib.Layer.hostBiasRelu_entry X b h1 h2 h0 r s).symm
  rw [hx0, hx1]

/-- What point `t` writes back is block `t` of the host's expression of the arrays as the region finds them. -/
theorem flushed_eq (c : Dev nD)
    (h1 : (⟨1, ![32]⟩ : Shape).BroadcastsInDim ⟨2, ![1, 32]⟩ ![1])
    (h2 : (⟨2, ![1, 32]⟩ : Shape).BroadcastsInDim ⟨2, ![150000, 32]⟩ ![0, 1])
    (h0 : (⟨0, ![]⟩ : Shape).BroadcastsInDim ⟨2, ![150000, 32]⟩ ![]) (t : Fin cfg3.N) :
    (dat3 V c).flushed 2 t = ((cfg3.win 2).blk t).view.read (Elt Ideal) (biasRelu (V c main_v56) (V c main_arg5) h1 h2 h0) := by
  show (cfg3.win 2).cut (grid3.coords t) ((dat3 V c).after 2 t) = _
  rw [after3_2]
  unfold out3_2
  rw [View.canon_unit_zero hz]
  simp only [View.ld_unit_zero (S := S6000x32) hz, View.ld_unit_zero (S := S32) hz1]
  obtain ⟨-, -, -, e4, e5⟩ := idx_facts t
  funext j
  show k3_pay1 (iblk3 V c 0 t) (iblk3 V c 1 t) j = biasRelu (V c main_v56) (V c main_arg5) h1 h2 h0 (((cfg3.win 2).blk t).view.emb j)
  exact block_entry (iblk3 V c 0 t) (iblk3 V c 1 t) (V c main_v56) (V c main_arg5) h1 h2 h0 j (((cfg3.win 2).blk t).view.emb j)
    (by show win3_2.index t (1 : Fin 2) * 32 + 1 * (j 1).val = _; rw [e5]; omega)
    (blk0_apply V c t j _ (by show win3_2.index t (0 : Fin 2) * 6000 + 1 * (j 0).val = _; rw [e4]; omega)
      (by show win3_2.index t (1 : Fin 2) * 32 + 1 * (j 1).val = _; rw [e5]; omega))
    (fun y => blk1_apply V c t y)

/-- An index of the array is in point `t`'s block iff each coordinate is in the block's range on its axis. -/
theorem mem_blk (t : Fin cfg3.N) (i : S150000x32.Idx) :
    i ∈ ((cfg3.win 2).blk t).view.set ↔ ∀ a : Fin 2, win3_2.index t a * S6000x32.size a ≤ (i a).val ∧ (i a).val < win3_2.index t a * S6000x32.size a + S6000x32.size a := by
  show i ∈ ((View.whole main_v57).slice (win3_2.rect t)).set ↔ _
  rw [View.set_slice_whole, Rect.mem_set_unit]
  exact Iff.rfl

/-- Row `r` of the array lies in the block of point `r / 6000`: the twenty-five blocks of 6000 rows tile the 150000 rows. -/
theorem cover (i : S150000x32.Idx) : ∃ t : Fin cfg3.N, (cfg3.win 2).flush t = true ∧ i ∈ ((cfg3.win 2).blk t).view.set := by
  have hi0 : (i 0).val < 150000 := (i 0).isLt
  have hi1 : (i 1).val < 32 := (i 1).isLt
  have hlt : (i 0).val / 6000 < cfg3.N := by
    show _ < grid3.N
    rw [N_3]
    omega
  obtain ⟨t, ht⟩ : ∃ t : Fin cfg3.N, t.val = (i 0).val / 6000 := ⟨⟨_, hlt⟩, rfl⟩
  refine ⟨t, flush3_2 t, ?_⟩
  rw [mem_blk]
  obtain ⟨-, -, -, e4, e5⟩ := idx_facts t
  intro a
  match a with
  | ⟨0, _⟩ =>
    show win3_2.index t (0 : Fin 2) * 6000 ≤ (i 0).val ∧ (i 0).val < win3_2.index t (0 : Fin 2) * 6000 + 6000
    rw [e4, ht]
    omega
  | ⟨1, _⟩ =>
    show win3_2.index t (1 : Fin 2) * 32 ≤ (i 1).val ∧ (i 1).val < win3_2.index t (1 : Fin 2) * 32 + 32
    rw [e5]
    omega

/-- The array the region leaves is the host's expression of the two arrays it was entered with. -/
theorem array_eq (c : Dev nD)
    (h1 : (⟨1, ![32]⟩ : Shape).BroadcastsInDim ⟨2, ![1, 32]⟩ ![1])
    (h2 : (⟨2, ![1, 32]⟩ : Shape).BroadcastsInDim ⟨2, ![150000, 32]⟩ ![0, 1])
    (h0 : (⟨0, ![]⟩ : Shape).BroadcastsInDim ⟨2, ![150000, 32]⟩ ![]) :
    (dat3 V c).arrAt 2 cfg3.N = biasRelu (V c main_v56) (V c main_arg5) h1 h2 h0 :=
  (dat3 V c).arrAt_eq_of_cover 2 (biasRelu (V c main_v56) (V c main_arg5) h1 h2 h0) (fun t _ => flushed_eq V c h1 h2 h0 t) cover

end Cert.KernelIdeal.Hand.Region3

end
-- ==== Proof.Region4.lean ====
/-
  Region 4: a matrix product computed in twenty-five blocks of 6000 rows.

  At each grid point the body multiplies a block of 6000 rows of the left matrix (32 columns) by the whole right matrix
  (32 × 1) into a zero accumulator and writes the 6000 × 1 result back as the same rows of the output. At the ideal
  values a change of float format is the identity and the accumulated product at an entry is the plain sum over the
  contracted coordinate, so block by block the output is the product of the two whole matrices: entry `(r, q)` is
  `∑ k, A (r, k) · B (k, q)`, the row `r = 6000 t + p` read through block `t`.
-/
import proofs.«179173_j6889127543167_1_alg».proof.Proof.Gen.KernelIdeal.Frame
import Idealize.ShloMosaic.Lib.Pipeline.Value
import Idealize.ShloMosaic.Lib.ValueIdx
import Idealize.ShloMosaic.Lib.StackMember
import proofs.«179173_j6889127543167_1_alg».proof.Proof.LibMatSum

set_option maxRecDepth 16384

noncomputable section

namespace Cert.KernelIdeal.Hand.Region4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand and the output move one block of rows per point, the right
    operand stays at its one block. -/
theorem idx_facts : ∀ t : Fin cfg4.N, win4_0.index t (0 : Fin 2) = t.val ∧ win4_0.index t (1 : Fin 2) = 0
    ∧ (win4_1.index t (0 : Fin 2) = 0 ∧ win4_1.index t (1 : Fin 2) = 0)
    ∧ win4_2.index t (0 : Fin 2) = t.val ∧ win4_2.index t (1 : Fin 2) = 0 :=
  (by decide +kernel : ∀ t : Fin grid4.N, _)

/-- The product of the two whole matrices. -/
abbrev prod (A : FVec Ideal S150000x32 .f32) (B : FVec Ideal S32x1 .f32) : FVec Ideal S150000x1 .f32 :=
  Host.dotGeneral (F := Ideal) (DotDims.plain 150000 32 1) none A B

/-- The body's stored value at an entry: the sum over the contracted coordinate. -/
theorem pay_entry (x0 : Vec Ideal S6000x32 .f32) (x1 : Vec Ideal S32x1 .f32) (p : Fin 6000) (q : Fin 1) :
    k4_pay1 x0 x1 (ix2 p q) = ∑ k : Fin 32, x0 (ix2 p k) * x1 (ix2 k q) := by
  unfold k4_pay1
  refine (Idealize.ShloMosaic.MatSum.matmul_zero_entry _ none _ _ p q).trans ?_
  rw [shapeCast_self]
  rfl

/-- The left operand's block at point `t` is rows `6000 t … 6000 t + 5999` of its array. -/
theorem blk0_apply (c : Dev nD) (t : Fin cfg4.N) (y : S6000x32.Idx) (z : S150000x32.Idx)
    (h0 : (z 0).val = t.val * 6000 + (y 0).val) (h1 : (z 1).val = (y 1).val) :
    (iblk4 V c 0 t : Vec Ideal S6000x32 .f32) y = (V c main_v57 : FVec Ideal S150000x32 .f32) z := by
  obtain ⟨e0, e1, -, -, -⟩ := idx_facts t
  show (V c main_v57 : FVec Ideal S150000x32 .f32) (((cfg4.win 0).blk t).view.emb y) = _
  refine congrArg _ (funext fun a => Fin.ext ?_)
  match a with
  | ⟨0, _⟩ => show win4_0.index t (0 : Fin 2) * 6000 + 1 * (y 0).val = (z 0).val; rw [e0, h0]; omega
  | ⟨1, _⟩ => show win4_0.index t (1 : Fin 2) * 32 + 1 * (y 1).val = (z 1).val; rw [e1, h1]; omega

/-- The right operand's one block is its whole array. -/
theorem blk1_apply (c : Dev nD) (t : Fin cfg4.N) (y : S32x1.Idx) :
    (iblk4 V c 1 t : Vec Ideal S32x1 .f32) y = (V c main_arg6 : FVec Ideal S32x1 .f32) y := by
  obtain ⟨-, -, ⟨e2, e3⟩, -, -⟩ := idx_facts t
  show (V c main_arg6 : FVec Ideal S32x1 .f32) (((cfg4.win 1).blk t).view.emb y) = _
  refine congrArg _ (funext fun a => Fin.ext ?_)
  match a with
  | ⟨0, _⟩ => show win4_1.index t (0 : Fin 2) * 32 + 1 * (y 0).val = (y 0).val; rw [e2]; omega
  | ⟨1, _⟩ => show win4_1.index t (1 : Fin 2) * 1 + 1 * (y 1).val = (y 1).val; rw [e3]; omega

/-- The stored value at entry `j` of a block whose rows are rows `6000 T + ·` of `A` is the whole product at the
    corresponding entry `i`. -/
theorem block_entry (x0 : Vec Ideal S6000x32 .f32) (x1 : Vec Ideal S32x1 .f32)
    (A : FVec Ideal S150000x32 .f32) (B : FVec Ideal S32x1 .f32) (T : ℕ)
    (j : S6000x1.Idx) (i : S150000x1.Idx)
    (hi0 : (i 0).val = T * 6000 + (j 0).val) (hi1 : (i 1).val = (j 1).val)
    (hx0 : ∀ (y : S6000x32.Idx) (z : S150000x32.Idx), (z 0).val = T * 6000 + (y 0).val → (z 1).val = (y 1).val → x0 y = A z)
    (hx1 : ∀ y : S32x1.Idx, x1 y = B y) :
    k4_pay1 x0 x1 j = prod A B i := by
  obtain ⟨p, q, rfl⟩ : ∃ (p : Fin 6000) (q : Fin 1), j = ix2 p q := ⟨j 0, j 1, eq_ix2 j⟩
  obtain ⟨r, s, rfl⟩ : ∃ (r : Fin 150000) (s : Fin 1), i = ix2 r s := ⟨i 0, i 1, eq_ix2 i⟩
  have hs : s = q := Fin.ext hi1
  subst hs
  rw [pay_entry]
  refine (Finset.sum_congr rfl fun k _ => ?_).trans (Idealize.ShloMosaic.StackMember.dotGeneral_plain_apply none A B r s).symm
  rw [hx0 (ix2 p k) (ix2 r k) hi0 rfl, hx1]

/-- What point `t` writes back is block `t` of the whole product of the arrays as the region finds them. -/
theorem flushed_eq (c : Dev nD) (t : Fin cfg4.N) :
    (dat4 V c).flushed 2 t = ((cfg4.win 2).blk t).view.read (Elt Ideal) (prod (V c main_v57) (V c main_arg6)) := by
  show (cfg4.win 2).cut (grid4.coords t) ((dat4 V c).after 2 t) = _
  rw [after4_2]
  unfold out4_2
  rw [View.canon_unit_zero hz]
  simp only [View.ld_unit_zero (S := S6000x32) hz, View.ld_unit_zero (S := S32x1) hz]
  obtain ⟨-, -, -, e4, e5⟩ := idx_facts t
  funext j
  show k4_pay1 (iblk4 V c 0 t) (iblk4 V c 1 t) j = prod (V c main_v57) (V c main_arg6) (((cfg4.win 2).blk t).view.emb j)
  exact block_entry (iblk4 V c 0 t) (iblk4 V c 1 t) (V c main_v57) (V c main_arg6) t.val j (((cfg4.win 2).blk t).view.emb j)
    (by show win4_2.index t (0 : Fin 2) * 6000 + 1 * (j 0).val = _; rw [e4]; omega)
    (by show win4_2.index t (1 : Fin 2) * 1 + 1 * (j 1).val = _; rw [e5]; omega)
    (fun y z h0 h1 => blk0_apply V c t y z h0 h1) (fun y => blk1_apply V c t y)

/-- An index of the array is in point `t`'s block iff each coordinate is in the block's range on its axis. -/
theorem mem_blk (t : Fin cfg4.N) (i : S150000x1.Idx) :
    i ∈ ((cfg4.win 2).blk t).view.set ↔ ∀ a : Fin 2, win4_2.index t a * S6000x1.size a ≤ (i a).val ∧ (i a).val < win4_2.index t a * S6000x1.size a + S6000x1.size a := by
  show i ∈ ((View.whole main_v58).slice (win4_2.rect t)).set ↔ _
  rw [View.set_slice_whole, Rect.mem_set_unit]
  exact Iff.rfl

/-- Row `r` of the array lies in the block of point `r / 6000`: the twenty-five blocks of 6000 rows tile the 150000 rows. -/
theorem cover (i : S150000x1.Idx) : ∃ t : Fin cfg4.N, (cfg4.win 2).flush t = true ∧ i ∈ ((cfg4.win 2).blk t).view.set := by
  have hi0 : (i 0).val < 150000 := (i 0).isLt
  have hi1 : (i 1).val < 1 := (i 1).isLt
  have hlt : (i 0).val / 6000 < cfg4.N := by
    show _ < grid4.N
    rw [N_4]
    omega
  obtain ⟨t, ht⟩ : ∃ t : Fin cfg4.N, t.val = (i 0).val / 6000 := ⟨⟨_, hlt⟩, rfl⟩
  refine ⟨t, flush4_2 t, ?_⟩
  rw [mem_blk]
  obtain ⟨-, -, -, e4, e5⟩ := idx_facts t
  intro a
  match a with
  | ⟨0, _⟩ =>
    show win4_2.index t (0 : Fin 2) * 6000 ≤ (i 0).val ∧ (i 0).val < win4_2.index t (0 : Fin 2) * 6000 + 6000
    rw [e4, ht]
    omega
  | ⟨1, _⟩ =>
    show win4_2.index t (1 : Fin 2) * 1 ≤ (i 1).val ∧ (i 1).val < win4_2.index t (1 : Fin 2) * 1 + 1
    rw [e5]
    omega

/-- The array the region leaves is the product of the two arrays it was entered with. -/
theorem array_eq (c : Dev nD) : (dat4 V c).arrAt 2 cfg4.N = prod (V c main_v57) (V c main_arg6) :=
  (dat4 V c).arrAt_eq_of_cover 2 (prod (V c main_v57) (V c main_arg6)) (fun t _ => flushed_eq V c t) cover

end Cert.KernelIdeal.Hand.Region4

end
-- ==== Proof.Region5.lean ====
/-
  Region 5: a bias added to every row and `1 / (1 + exp (-v))` applied, in twenty-five blocks of 6000 rows.

  At each grid point the body reads a block of 6000 rows (1 columns) and the whole bias vector, adds the bias to every
  row, applies the activation entry by entry (the negative written as `0 - v`, which is `-v` on the extended reals) and writes the block back as the same rows of the output. Every entry of the
  output depends on the one entry of the input at the same place and on the bias at its column, so block by block the
  output is the host's whole-matrix expression of the two arrays.
-/
import proofs.«179173_j6889127543167_1_alg».proof.Proof.Gen.KernelIdeal.Frame
import Idealize.ShloMosaic.Lib.Pipeline.Value
import Idealize.ShloMosaic.Lib.ValueIdx
import proofs.«179173_j6889127543167_1_alg».proof.Proof.LibLayer

set_option maxRecDepth 16384

noncomputable section

namespace Cert.KernelIdeal.Hand.Region5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the input and the output move one block of rows per point, the bias stays at
    its one block. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- The host's whole-matrix expression: the bias broadcast to one row and then to every row, added, the activation applied. -/
abbrev biasLogistic (X : FVec Ideal S150000x1 .f32) (b : FVec Ideal S1 .f32)
    (h1 : (⟨1, ![1]⟩ : Shape).BroadcastsInDim ⟨2, ![1, 1]⟩ ![1])
    (h2 : (⟨2, ![1, 1]⟩ : Shape).BroadcastsInDim ⟨2, ![150000, 1]⟩ ![0, 1])
    (h0 h0' : (⟨0, ![]⟩ : Shape).BroadcastsInDim ⟨2, ![150000, 1]⟩ ![]) : FVec Ideal S150000x1 .f32 :=
  Host.divf (F := Ideal) (broadcastInDim ⟨2, ![150000, 1]⟩ ![] h0 (constant (F := Ideal) ⟨0, ![]⟩ .f32 0x3F800000#32))
    (addf (broadcastInDim ⟨2, ![150000, 1]⟩ ![] h0' (constant (F := Ideal) ⟨0, ![]⟩ .f32 0x3F800000#32))
      (Host.exp (Host.negf (addf X (broadcastInDim ⟨2, ![150000, 1]⟩ ![0, 1] h2 (broadcastInDim ⟨2, ![1, 1]⟩ ![1] h1 b))))))

/-- The body's stored value at an entry. -/
theorem pay_entry (x0 : Vec Ideal S6000x1 .f32) (x1 : Vec Ideal S1 .f32) (p : Fin 6000) (q : Fin 1) :
    k5_pay1 x0 x1 (ix2 p q) = Cert.Lib.Layer.logisticOf (x0 (ix2 p q) + x1 (ix1 q)) := by
  unfold k5_pay1
  exact Cert.Lib.Layer.blockBiasLogistic_entry x0 x1 _ _ _ p q

/-- The input's block at point `t` is rows `6000 t … 6000 t + 5999` of its array. -/
theorem blk0_apply (c : Dev nD) (t : Fin cfg5.N) (y : S6000x1.Idx) (z : S150000x1.Idx)
    (h0 : (z 0).val = t.val * 6000 + (y 0).val) (h1 : (z 1).val = (y 1).val) :
    (iblk5 V c 0 t : Vec Ideal S6000x1 .f32) y = (V c main_v69 : FVec Ideal S150000x1 .f32) z := by
  obtain ⟨e0, e1, -, -, -⟩ := idx_facts t
  show (V c main_v69 : FVec Ideal S150000x1 .f32) (((cfg5.win 0).blk t).view.emb y) = _
  refine congrArg _ (funext fun a => Fin.ext ?_)
  match a with
  | ⟨0, _⟩ => show win5_0.index t (0 : Fin 2) * 6000 + 1 * (y 0).val = (z 0).val; rw [e0, h0]; omega
  | ⟨1, _⟩ => show win5_0.index t (1 : Fin 2) * 1 + 1 * (y 1).val = (z 1).val; rw [e1, h1]; omega

/-- The bias's one block is its whole array. -/
theorem blk1_apply (c : Dev nD) (t : Fin cfg5.N) (y : S1.Idx) :
    (iblk5 V c 1 t : Vec Ideal S1 .f32) y = (V c main_arg7 : FVec Ideal S1 .f32) y := by
  obtain ⟨-, -, e2, -, -⟩ := idx_facts t
  show (V c main_arg7 : FVec Ideal S1 .f32) (((cfg5.win 1).blk t).view.emb y) = _
  refine congrArg _ (funext fun a => Fin.ext ?_)
  match a with
  | ⟨0, _⟩ => show win5_1.index t (0 : Fin 1) * 1 + 1 * (y 0).val = (y 0).val; rw [e2]; omega

/-- The stored value at entry `j` of a block is the host's expression at the corresponding entry `i` of the whole matrix. -/
theorem block_entry (x0 : Vec Ideal S6000x1 .f32) (x1 : Vec Ideal S1 .f32)
    (X : FVec Ideal S150000x1 .f32) (b : FVec Ideal S1 .f32)
    (h1 : (⟨1, ![1]⟩ : Shape).BroadcastsInDim ⟨2, ![1, 1]⟩ ![1])
    (h2 : (⟨2, ![1, 1]⟩ : Shape).BroadcastsInDim ⟨2, ![150000, 1]⟩ ![0, 1])
    (h0 h0' : (⟨0, ![]⟩ : Shape).BroadcastsInDim ⟨2, ![150000, 1]⟩ ![])
    (j : S6000x1.Idx) (i : S150000x1.Idx)
    (hi1 : (i 1).val = (j 1).val) (hx0 : x0 j = X i) (hx1 : ∀ y : S1.Idx, x1 y = b y) :
    k5_pay1 x0 x1 j = biasLogistic X b h1 h2 h0 h0' i := by
  obtain ⟨p, q, rfl⟩ : ∃ (p : Fin 6000) (q : Fin 1), j = ix2 p q := ⟨j 0, j 1, eq_ix2 j⟩
  obtain ⟨r, s, rfl⟩ : ∃ (r : Fin 150000) (s : Fin 1), i = ix2 r s := ⟨i 0, i 1, eq_ix2 i⟩
  have hs : s = q := Fin.ext hi1
  subst hs
  rw [pay_entry]
  refine Eq.trans ?_ (Cert.Lib.Layer.hostBiasLogistic_entry X b h1 h2 h0 h0' r s).symm
  rw [hx0, hx1]

/-- What point `t` writes back is block `t` of the host's expression of the arrays as the region finds them. -/
theorem flushed_eq (c : Dev nD)
    (h1 : (⟨1, ![1]⟩ : Shape).BroadcastsInDim ⟨2, ![1, 1]⟩ ![1])
    (h2 : (⟨2, ![1, 1]⟩ : Shape).BroadcastsInDim ⟨2, ![150000, 1]⟩ ![0, 1])
    (h0 h0' : (⟨0, ![]⟩ : Shape).BroadcastsInDim ⟨2, ![150000, 1]⟩ ![]) (t : Fin cfg5.N) :
    (dat5 V c).flushed 2 t = ((cfg5.win 2).blk t).view.read (Elt Ideal) (biasLogistic (V c main_v69) (V c main_arg7) h1 h2 h0 h0') := by
  show (cfg5.win 2).cut (grid5.coords t) ((dat5 V c).after 2 t) = _
  rw [after5_2]
  unfold out5_2
  rw [View.canon_unit_zero hz]
  simp only [View.ld_unit_zero (S := S6000x1) hz, View.ld_unit_zero (S := S1) hz1]
  obtain ⟨-, -, -, e4, e5⟩ := idx_facts t
  funext j
  show k5_pay1 (iblk5 V c 0 t) (iblk5 V c 1 t) j = biasLogistic (V c main_v69) (V c main_arg7) h1 h2 h0 h0' (((cfg5.win 2).blk t).view.emb j)
  exact block_entry (iblk5 V c 0 t) (iblk5 V c 1 t) (V c main_v69) (V c main_arg7) h1 h2 h0 h0' j (((cfg5.win 2).blk t).view.emb j)
    (by show win5_2.index t (1 : Fin 2) * 1 + 1 * (j 1).val = _; rw [e5]; omega)
    (blk0_apply V c t j _ (by show win5_2.index t (0 : Fin 2) * 6000 + 1 * (j 0).val = _; rw [e4]; omega)
      (by show win5_2.index t (1 : Fin 2) * 1 + 1 * (j 1).val = _; rw [e5]; omega))
    (fun y => blk1_apply V c t y)

/-- An index of the array is in point `t`'s block iff each coordinate is in the block's range on its axis. -/
theorem mem_blk (t : Fin cfg5.N) (i : S150000x1.Idx) :
    i ∈ ((cfg5.win 2).blk t).view.set ↔ ∀ a : Fin 2, win5_2.index t a * S6000x1.size a ≤ (i a).val ∧ (i a).val < win5_2.index t a * S6000x1.size a + S6000x1.size a := by
  show i ∈ ((View.whole main_v70).slice (win5_2.rect t)).set ↔ _
  rw [View.set_slice_whole, Rect.mem_set_unit]
  exact Iff.rfl

/-- Row `r` of the array lies in the block of point `r / 6000`: the twenty-five blocks of 6000 rows tile the 150000 rows. -/
theorem cover (i : S150000x1.Idx) : ∃ t : Fin cfg5.N, (cfg5.win 2).flush t = true ∧ i ∈ ((cfg5.win 2).blk t).view.set := by
  have hi0 : (i 0).val < 150000 := (i 0).isLt
  have hi1 : (i 1).val < 1 := (i 1).isLt
  have hlt : (i 0).val / 6000 < cfg5.N := by
    show _ < grid5.N
    rw [N_5]
    omega
  obtain ⟨t, ht⟩ : ∃ t : Fin cfg5.N, t.val = (i 0).val / 6000 := ⟨⟨_, hlt⟩, rfl⟩
  refine ⟨t, flush5_2 t, ?_⟩
  rw [mem_blk]
  obtain ⟨-, -, -, e4, e5⟩ := idx_facts t
  intro a
  match a with
  | ⟨0, _⟩ =>
    show win5_2.index t (0 : Fin 2) * 6000 ≤ (i 0).val ∧ (i 0).val < win5_2.index t (0 : Fin 2) * 6000 + 6000
    rw [e4, ht]
    omega
  | ⟨1, _⟩ =>
    show win5_2.index t (1 : Fin 2) * 1 ≤ (i 1).val ∧ (i 1).val < win5_2.index t (1 : Fin 2) * 1 + 1
    rw [e5]
    omega

/-- The array the region leaves is the host's expression of the two arrays it was entered with. -/
theorem array_eq (c : Dev nD)
    (h1 : (⟨1, ![1]⟩ : Shape).BroadcastsInDim ⟨2, ![1, 1]⟩ ![1])
    (h2 : (⟨2, ![1, 1]⟩ : Shape).BroadcastsInDim ⟨2, ![150000, 1]⟩ ![0, 1])
    (h0 h0' : (⟨0, ![]⟩ : Shape).BroadcastsInDim ⟨2, ![150000, 1]⟩ ![]) :
    (dat5 V c).arrAt 2 cfg5.N = biasLogistic (V c main_v69) (V c main_arg7) h1 h2 h0 h0' :=
  (dat5 V c).arrAt_eq_of_cover 2 (biasLogistic (V c main_v69) (V c main_arg7) h1 h2 h0 h0') (fun t _ => flushed_eq V c h1 h2 h0 h0' t) cover

end Cert.KernelIdeal.Hand.Region5

end
-- ==== Proof.Chain.lean ====
/-
  The idealized kernel program's result as a function of its arguments, read boundary by boundary.

  The program alternates host stretches and tiled regions. A host stretch is the same list of operations the
  reference runs, so what it writes is the reference's stage of the same operands. A matrix-product region leaves the
  product of the two arrays it was entered with, which is the host's product at the ideal values; a bias region leaves
  the host's bias-and-activation expression. Folding these ten steps from the launch memory, the result array ends at
  the reference's last stage of the eight arguments. The source and destination index vectors, the edge
  normalisation and the arguments not yet used are carried unchanged across every boundary that does not write them.
-/
import proofs.«179173_j6889127543167_1_alg».proof.Proof.Gen.KernelIdeal.Frame
import proofs.«179173_j6889127543167_1_alg».proof.Proof.Gen.ReferenceIdeal.Read
import proofs.«179173_j6889127543167_1_alg».proof.Proof.Region0
import proofs.«179173_j6889127543167_1_alg».proof.Proof.Region1
import proofs.«179173_j6889127543167_1_alg».proof.Proof.Region2
import proofs.«179173_j6889127543167_1_alg».proof.Proof.Region3
import proofs.«179173_j6889127543167_1_alg».proof.Proof.Region4
import proofs.«179173_j6889127543167_1_alg».proof.Proof.Region5
import Idealize.ShloMosaic.Lib.StableHlo.Run

set_option maxRecDepth 16384

noncomputable section

namespace Cert.KernelIdeal.Hand.Chain

open Cert.KernelIdeal Cert.KernelIdeal.Gen Cert.KernelIdeal.Hand Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- After the first host stretch `main_v3` holds the reference's stage of the edge list. -/
theorem w1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

set_option maxHeartbeats 4000000 in
/-- After the first host stretch `main_v6` holds the reference's stage of the edge list. -/
theorem w1_v6 : W1 m ρ c (Proc.devRef .tc main_v6) = val_main_v6 (F := Ideal) (m ((c : Thread nD τ).loc main_arg1)) := by
  show StableHlo.after hostOps0 (W0 m ρ c) (Proc.devRef .tc main_v6) = _
  after_results_simp
  rfl

set_option maxHeartbeats 4000000 in
/-- After the first host stretch `main_v29` holds the reference's stage of the edge list. -/
theorem w1_v29 : W1 m ρ c (Proc.devRef .tc main_v29) = val_main_v29 (F := Ideal) (m ((c : Thread nD τ).loc main_arg1)) := by
  show StableHlo.after hostOps0 (W0 m ρ c) (Proc.devRef .tc main_v29) = _
  after_results_simp
  rfl

set_option maxHeartbeats 4000000 in
theorem w1_arg0 : W1 m ρ c (Proc.devRef .tc main_arg0) = (m ((c : Thread nD τ).loc main_arg0)) := by
  show StableHlo.after hostOps0 (W0 m ρ c) (Proc.devRef .tc main_arg0) = _
  after_results_simp <;> rfl

set_option maxHeartbeats 4000000 in
theorem w1_arg2 : W1 m ρ c (Proc.devRef .tc main_arg2) = (m ((c : Thread nD τ).loc main_arg2)) := by
  show StableHlo.after hostOps0 (W0 m ρ c) (Proc.devRef .tc main_arg2) = _
  after_results_simp <;> rfl

set_option maxHeartbeats 4000000 in
theorem w1_arg3 : W1 m ρ c (Proc.devRef .tc main_arg3) = (m ((c : Thread nD τ).loc main_arg3)) := by
  show StableHlo.after hostOps0 (W0 m ρ c) (Proc.devRef .tc main_arg3) = _
  after_results_simp <;> rfl

set_option maxHeartbeats 4000000 in
theorem w1_arg4 : W1 m ρ c (Proc.devRef .tc main_arg4) = (m ((c : Thread nD τ).loc main_arg4)) := by
  show StableHlo.after hostOps0 (W0 m ρ c) (Proc.devRef .tc main_arg4) = _
  after_results_simp <;> rfl

set_option maxHeartbeats 4000000 in
theorem w1_arg5 : W1 m ρ c (Proc.devRef .tc main_arg5) = (m ((c : Thread nD τ).loc main_arg5)) := by
  show StableHlo.after hostOps0 (W0 m ρ c) (Proc.devRef .tc main_arg5) = _
  after_results_simp <;> rfl

set_option maxHeartbeats 4000000 in
theorem w1_arg6 : W1 m ρ c (Proc.devRef .tc main_arg6) = (m ((c : Thread nD τ).loc main_arg6)) := by
  show StableHlo.after hostOps0 (W0 m ρ c) (Proc.devRef .tc main_arg6) = _
  after_results_simp <;> rfl

set_option maxHeartbeats 4000000 in
theorem w1_arg7 : W1 m ρ c (Proc.devRef .tc main_arg7) = (m ((c : Thread nD τ).loc main_arg7)) := by
  show StableHlo.after hostOps0 (W0 m ρ c) (Proc.devRef .tc main_arg7) = _
  after_results_simp <;> rfl

/-- After the first region its output holds the product of the node features and the first weight matrix. -/
theorem w2_v30 : W2 m ρ c (Proc.devRef .tc main_v30) = val_main_v30 (F := Ideal) (m ((c : Thread nD τ).loc main_arg0)) (m ((c : Thread nD τ).loc main_arg2)) := by
  refine (W2_arr m ρ c 2).trans ?_
  refine (Region0.array_eq (V1 m ρ) c).trans ?_
  rw [show V1 m ρ c main_arg0 = _ from w1_arg0 m ρ c, show V1 m ρ c main_arg2 = _ from w1_arg2 m ρ c]
  rfl

theorem w2_v3 : W2 m ρ c (Proc.devRef .tc main_v3) = val_main_v3 (F := Ideal) (m ((c : Thread nD τ).loc main_arg1)) :=
  (W2_of_ne m ρ c main_v3 (by decide)).trans (w1_v3 m ρ c)

theorem w2_v6 : W2 m ρ c (Proc.devRef .tc main_v6) = val_main_v6 (F := Ideal) (m ((c : Thread nD τ).loc main_arg1)) :=
  (W2_of_ne m ρ c main_v6 (by decide)).trans (w1_v6 m ρ c)

theorem w2_v29 : W2 m ρ c (Proc.devRef .tc main_v29) = val_main_v29 (F := Ideal) (m ((c : Thread nD τ).loc main_arg1)) :=
  (W2_of_ne m ρ c main_v29 (by decide)).trans (w1_v29 m ρ c)

theorem w2_arg3 : W2 m ρ c (Proc.devRef .tc main_arg3) = (m ((c : Thread nD τ).loc main_arg3)) :=
  (W2_of_ne m ρ c main_arg3 (by decide)).trans (w1_arg3 m ρ c)

theorem w2_arg4 : W2 m ρ c (Proc.devRef .tc main_arg4) = (m ((c : Thread nD τ).loc main_arg4)) :=
  (W2_of_ne m ρ c main_arg4 (by decide)).trans (w1_arg4 m ρ c)

theorem w2_arg5 : W2 m ρ c (Proc.devRef .tc main_arg5) = (m ((c : Thread nD τ).loc main_arg5)) :=
  (W2_of_ne m ρ c main_arg5 (by decide)).trans (w1_arg5 m ρ c)

theorem w2_arg6 : W2 m ρ c (Proc.devRef .tc main_arg6) = (m ((c : Thread nD τ).loc main_arg6)) :=
  (W2_of_ne m ρ c main_arg6 (by decide)).trans (w1_arg6 m ρ c)

theorem w2_arg7 : W2 m ρ c (Proc.devRef .tc main_arg7) = (m ((c : Thread nD τ).loc main_arg7)) :=
  (W2_of_ne m ρ c main_arg7 (by decide)).trans (w1_arg7 m ρ c)

set_option maxHeartbeats 4000000 in
/-- After the second host stretch: the first layer's products gathered along the edges, scaled and summed into their destination rows. -/
theorem w3_v42 : W3 m ρ c (Proc.devRef .tc main_v42) = val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  after_results_simp
  rw [w2_v3 m ρ c, w2_v6 m ρ c, w2_v29 m ρ c, w2_v30 m ρ c]
  rfl

set_option maxHeartbeats 4000000 in
theorem w3_v3 : W3 m ρ c (Proc.devRef .tc main_v3) = val_main_v3 (F := Ideal) (m ((c : Thread nD τ).loc main_arg1)) := by
  refine Eq.trans ?_ (w2_v3 m ρ c)
  show StableHlo.after hostOps1 (W2 m ρ c) (Proc.devRef .tc main_v3) = _
  after_results_simp <;> rfl

set_option maxHeartbeats 4000000 in
theorem w3_v6 : W3 m ρ c (Proc.devRef .tc main_v6) = val_main_v6 (F := Ideal) (m ((c : Thread nD τ).loc main_arg1)) := by
  refine Eq.trans ?_ (w2_v6 m ρ c)
  show StableHlo.after hostOps1 (W2 m ρ c) (Proc.devRef .tc main_v6) = _
  after_results_simp <;> rfl

set_option maxHeartbeats 4000000 in
theorem w3_v29 : W3 m ρ c (Proc.devRef .tc main_v29) = val_main_v29 (F := Ideal) (m ((c : Thread nD τ).loc main_arg1)) := by
  refine Eq.trans ?_ (w2_v29 m ρ c)
  show StableHlo.after hostOps1 (W2 m ρ c) (Proc.devRef .tc main_v29) = _
  after_results_simp <;> rfl

set_option maxHeartbeats 4000000 in
theorem w3_arg3 : W3 m ρ c (Proc.devRef .tc main_arg3) = (m ((c : Thread nD τ).loc main_arg3)) := by
  refine Eq.trans ?_ (w2_arg3 m ρ c)
  show StableHlo.after hostOps1 (W2 m ρ c) (Proc.devRef .tc main_arg3) = _
  after_results_simp <;> rfl

set_option maxHeartbeats 4000000 in
theorem w3_arg4 : W3 m ρ c (Proc.devRef .tc main_arg4) = (m ((c : Thread nD τ).loc main_arg4)) := by
  refine Eq.trans ?_ (w2_arg4 m ρ c)
  show StableHlo.after hostOps1 (W2 m ρ c) (Proc.devRef .tc main_arg4) = _
  after_results_simp <;> rfl

set_option maxHeartbeats 4000000 in
theorem w3_arg5 : W3 m ρ c (Proc.devRef .tc main_arg5) = (m ((c : Thread nD τ).loc main_arg5)) := by
  refine Eq.trans ?_ (w2_arg5 m ρ c)
  show StableHlo.after hostOps1 (W2 m ρ c) (Proc.devRef .tc main_arg5) = _
  after_results_simp <;> rfl

set_option maxHeartbeats 4000000 in
theorem w3_arg6 : W3 m ρ c (Proc.devRef .tc main_arg6) = (m ((c : Thread nD τ).loc main_arg6)) := by
  refine Eq.trans ?_ (w2_arg6 m ρ c)
  show StableHlo.after hostOps1 (W2 m ρ c) (Proc.devRef .tc main_arg6) = _
  after_results_simp <;> rfl

set_option maxHeartbeats 4000000 in
theorem w3_arg7 : W3 m ρ c (Proc.devRef .tc main_arg7) = (m ((c : Thread nD τ).loc main_arg7)) := by
  refine Eq.trans ?_ (w2_arg7 m ρ c)
  show StableHlo.after hostOps1 (W2 m ρ c) (Proc.devRef .tc main_arg7) = _
  after_results_simp <;> rfl

/-- After the second region: the first layer's output, bias added and rectified. -/
theorem w4_v43 : W4 m ρ c (Proc.devRef .tc main_v43) = val_main_v46 (F := Ideal) (m ((c : Thread nD τ).loc main_arg0)) (m ((c : Thread nD τ).loc main_arg1)) (m ((c : Thread nD τ).loc main_arg2)) (m ((c : Thread nD τ).loc main_arg3)) := by
  refine (W4_arr m ρ c 2).trans ?_
  refine (Region1.array_eq (V3 m ρ) c Cert.ReferenceIdeal.Facts₀.bcast_S32_S1x32_1 Cert.ReferenceIdeal.Facts₀.bcast_S1x32_S150000x32_0_1 Cert.ReferenceIdeal.Facts₀.bcast_S_S150000x32).trans ?_
  rw [show V3 m ρ c main_v42 = _ from w3_v42 m ρ c, show V3 m ρ c main_arg3 = _ from w3_arg3 m ρ c]
  rfl

theorem w4_v3 : W4 m ρ c (Proc.devRef .tc main_v3) = val_main_v3 (F := Ideal) (m ((c : Thread nD τ).loc main_arg1)) :=
  (W4_of_ne m ρ c main_v3 (by decide)).trans (w3_v3 m ρ c)

theorem w4_v6 : W4 m ρ c (Proc.devRef .tc main_v6) = val_main_v6 (F := Ideal) (m ((c : Thread nD τ).loc main_arg1)) :=
  (W4_of_ne m ρ c main_v6 (by decide)).trans (w3_v6 m ρ c)

theorem w4_v29 : W4 m ρ c (Proc.devRef .tc main_v29) = val_main_v29 (F := Ideal) (m ((c : Thread nD τ).loc main_arg1)) :=
  (W4_of_ne m ρ c main_v29 (by decide)).trans (w3_v29 m ρ c)

theorem w4_arg4 : W4 m ρ c (Proc.devRef .tc main_arg4) = (m ((c : Thread nD τ).loc main_arg4)) :=
  (W4_of_ne m ρ c main_arg4 (by decide)).trans (w3_arg4 m ρ c)

theorem w4_arg5 : W4 m ρ c (Proc.devRef .tc main_arg5) = (m ((c : Thread nD τ).loc main_arg5)) :=
  (W4_of_ne m ρ c main_arg5 (by decide)).trans (w3_arg5 m ρ c)

theorem w4_arg6 : W4 m ρ c (Proc.devRef .tc main_arg6) = (m ((c : Thread nD τ).loc main_arg6)) :=
  (W4_of_ne m ρ c main_arg6 (by decide)).trans (w3_arg6 m ρ c)

theorem w4_arg7 : W4 m ρ c (Proc.devRef .tc main_arg7) = (m ((c : Thread nD τ).loc main_arg7)) :=
  (W4_of_ne m ρ c main_arg7 (by decide)).trans (w3_arg7 m ρ c)

/-- After the third region: the first layer's output times the second weight matrix. -/
theorem w5_v44 : W5 m ρ c (Proc.devRef .tc main_v44) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  refine (Region2.array_eq (V4 m ρ) c).trans ?_
  rw [show V4 m ρ c main_v43 = _ from w4_v43 m ρ c, show V4 m ρ c main_arg4 = _ from w4_arg4 m ρ c]
  rfl

theorem w5_v3 : W5 m ρ c (Proc.devRef .tc main_v3) = val_main_v3 (F := Ideal) (m ((c : Thread nD τ).loc main_arg1)) :=
  (W5_of_ne m ρ c main_v3 (by decide)).trans (w4_v3 m ρ c)

theorem w5_v6 : W5 m ρ c (Proc.devRef .tc main_v6) = val_main_v6 (F := Ideal) (m ((c : Thread nD τ).loc main_arg1)) :=
  (W5_of_ne m ρ c main_v6 (by decide)).trans (w4_v6 m ρ c)

theorem w5_v29 : W5 m ρ c (Proc.devRef .tc main_v29) = val_main_v29 (F := Ideal) (m ((c : Thread nD τ).loc main_arg1)) :=
  (W5_of_ne m ρ c main_v29 (by decide)).trans (w4_v29 m ρ c)

theorem w5_arg5 : W5 m ρ c (Proc.devRef .tc main_arg5) = (m ((c : Thread nD τ).loc main_arg5)) :=
  (W5_of_ne m ρ c main_arg5 (by decide)).trans (w4_arg5 m ρ c)

theorem w5_arg6 : W5 m ρ c (Proc.devRef .tc main_arg6) = (m ((c : Thread nD τ).loc main_arg6)) :=
  (W5_of_ne m ρ c main_arg6 (by decide)).trans (w4_arg6 m ρ c)

theorem w5_arg7 : W5 m ρ c (Proc.devRef .tc main_arg7) = (m ((c : Thread nD τ).loc main_arg7)) :=
  (W5_of_ne m ρ c main_arg7 (by decide)).trans (w4_arg7 m ρ c)

set_option maxHeartbeats 4000000 in
/-- After the third host stretch: the second layer's aggregation. -/
theorem w6_v56 : W6 m ρ c (Proc.devRef .tc main_v56) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [w5_v3 m ρ c, w5_v6 m ρ c, w5_v29 m ρ c, w5_v44 m ρ c]
  rfl

set_option maxHeartbeats 4000000 in
theorem w6_v3 : W6 m ρ c (Proc.devRef .tc main_v3) = val_main_v3 (F := Ideal) (m ((c : Thread nD τ).loc main_arg1)) := by
  refine Eq.trans ?_ (w5_v3 m ρ c)
  show StableHlo.after hostOps3 (W5 m ρ c) (Proc.devRef .tc main_v3) = _
  after_results_simp <;> rfl

set_option maxHeartbeats 4000000 in
theorem w6_v6 : W6 m ρ c (Proc.devRef .tc main_v6) = val_main_v6 (F := Ideal) (m ((c : Thread nD τ).loc main_arg1)) := by
  refine Eq.trans ?_ (w5_v6 m ρ c)
  show StableHlo.after hostOps3 (W5 m ρ c) (Proc.devRef .tc main_v6) = _
  after_results_simp <;> rfl

set_option maxHeartbeats 4000000 in
theorem w6_v29 : W6 m ρ c (Proc.devRef .tc main_v29) = val_main_v29 (F := Ideal) (m ((c : Thread nD τ).loc main_arg1)) := by
  refine Eq.trans ?_ (w5_v29 m ρ c)
  show StableHlo.after hostOps3 (W5 m ρ c) (Proc.devRef .tc main_v29) = _
  after_results_simp <;> rfl

set_option maxHeartbeats 4000000 in
theorem w6_arg5 : W6 m ρ c (Proc.devRef .tc main_arg5) = (m ((c : Thread nD τ).loc main_arg5)) := by
  refine Eq.trans ?_ (w5_arg5 m ρ c)
  show StableHlo.after hostOps3 (W5 m ρ c) (Proc.devRef .tc main_arg5) = _
  after_results_simp <;> rfl

set_option maxHeartbeats 4000000 in
theorem w6_arg6 : W6 m ρ c (Proc.devRef .tc main_arg6) = (m ((c : Thread nD τ).loc main_arg6)) := by
  refine Eq.trans ?_ (w5_arg6 m ρ c)
  show StableHlo.after hostOps3 (W5 m ρ c) (Proc.devRef .tc main_arg6) = _
  after_results_simp <;> rfl

set_option maxHeartbeats 4000000 in
theorem w6_arg7 : W6 m ρ c (Proc.devRef .tc main_arg7) = (m ((c : Thread nD τ).loc main_arg7)) := by
  refine Eq.trans ?_ (w5_arg7 m ρ c)
  show StableHlo.after hostOps3 (W5 m ρ c) (Proc.devRef .tc main_arg7) = _
  after_results_simp <;> rfl

/-- After the fourth region: the second layer's output, bias added and rectified. -/
theorem w7_v57 : W7 m ρ c (Proc.devRef .tc main_v57) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  refine (Region3.array_eq (V6 m ρ) c Cert.ReferenceIdeal.Facts₀.bcast_S32_S1x32_1 Cert.ReferenceIdeal.Facts₀.bcast_S1x32_S150000x32_0_1 Cert.ReferenceIdeal.Facts₀.bcast_S_S150000x32).trans ?_
  rw [show V6 m ρ c main_v56 = _ from w6_v56 m ρ c, show V6 m ρ c main_arg5 = _ from w6_arg5 m ρ c]
  rfl

theorem w7_v3 : W7 m ρ c (Proc.devRef .tc main_v3) = val_main_v3 (F := Ideal) (m ((c : Thread nD τ).loc main_arg1)) :=
  (W7_of_ne m ρ c main_v3 (by decide)).trans (w6_v3 m ρ c)

theorem w7_v6 : W7 m ρ c (Proc.devRef .tc main_v6) = val_main_v6 (F := Ideal) (m ((c : Thread nD τ).loc main_arg1)) :=
  (W7_of_ne m ρ c main_v6 (by decide)).trans (w6_v6 m ρ c)

theorem w7_v29 : W7 m ρ c (Proc.devRef .tc main_v29) = val_main_v29 (F := Ideal) (m ((c : Thread nD τ).loc main_arg1)) :=
  (W7_of_ne m ρ c main_v29 (by decide)).trans (w6_v29 m ρ c)

theorem w7_arg6 : W7 m ρ c (Proc.devRef .tc main_arg6) = (m ((c : Thread nD τ).loc main_arg6)) :=
  (W7_of_ne m ρ c main_arg6 (by decide)).trans (w6_arg6 m ρ c)

theorem w7_arg7 : W7 m ρ c (Proc.devRef .tc main_arg7) = (m ((c : Thread nD τ).loc main_arg7)) :=
  (W7_of_ne m ρ c main_arg7 (by decide)).trans (w6_arg7 m ρ c)

/-- After the fifth region: the second layer's output times the last weight column. -/
theorem w8_v58 : W8 m ρ c (Proc.devRef .tc main_v58) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  refine (Region4.array_eq (V7 m ρ) c).trans ?_
  rw [show V7 m ρ c main_v57 = _ from w7_v57 m ρ c, show V7 m ρ c main_arg6 = _ from w7_arg6 m ρ c]
  rfl

theorem w8_v3 : W8 m ρ c (Proc.devRef .tc main_v3) = val_main_v3 (F := Ideal) (m ((c : Thread nD τ).loc main_arg1)) :=
  (W8_of_ne m ρ c main_v3 (by decide)).trans (w7_v3 m ρ c)

theorem w8_v6 : W8 m ρ c (Proc.devRef .tc main_v6) = val_main_v6 (F := Ideal) (m ((c : Thread nD τ).loc main_arg1)) :=
  (W8_of_ne m ρ c main_v6 (by decide)).trans (w7_v6 m ρ c)

theorem w8_v29 : W8 m ρ c (Proc.devRef .tc main_v29) = val_main_v29 (F := Ideal) (m ((c : Thread nD τ).loc main_arg1)) :=
  (W8_of_ne m ρ c main_v29 (by decide)).trans (w7_v29 m ρ c)

theorem w8_arg7 : W8 m ρ c (Proc.devRef .tc main_arg7) = (m ((c : Thread nD τ).loc main_arg7)) :=
  (W8_of_ne m ρ c main_arg7 (by decide)).trans (w7_arg7 m ρ c)

set_option maxHeartbeats 4000000 in
/-- After the last host stretch: the third layer's aggregation. -/
theorem w9_v69 : W9 m ρ c (Proc.devRef .tc main_v69) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v69) = _
  after_results_simp
  rw [w8_v3 m ρ c, w8_v6 m ρ c, w8_v29 m ρ c, w8_v58 m ρ c]
  rfl

set_option maxHeartbeats 4000000 in
theorem w9_arg7 : W9 m ρ c (Proc.devRef .tc main_arg7) = (m ((c : Thread nD τ).loc main_arg7)) := by
  refine Eq.trans ?_ (w8_arg7 m ρ c)
  show StableHlo.after hostOps5 (W8 m ρ c) (Proc.devRef .tc main_arg7) = _
  after_results_simp <;> rfl

/-- After the last region the result array holds the reference's last stage: bias added and the logistic function applied. -/
theorem w10_v70 : W10 m ρ c (Proc.devRef .tc main_v70) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  refine (Region5.array_eq (V9 m ρ) c Cert.ReferenceIdeal.Facts₀.bcast_S1_S1x1_1 Cert.ReferenceIdeal.Facts₀.bcast_S1x1_S150000x1_0_1 Cert.ReferenceIdeal.Facts₀.bcast_S_S150000x1 Cert.ReferenceIdeal.Facts₀.bcast_S_S150000x1).trans ?_
  rw [show V9 m ρ c main_v69 = _ from w9_v69 m ρ c, show V9 m ρ c main_arg7 = _ from w9_arg7 m ρ c]
  rfl

end Cert.KernelIdeal.Hand.Chain

end
-- ==== Proof.lean ====
/-
  A three-layer graph convolution: the tiled kernel program against the plain reference, at the ideal values.

  Both programs take node features `x` (150000 × 128), an edge list (2 × 2400000) and three dense layers. Both append a
  self-loop per node to the edge list, count each node's incoming edges, and give edge `e` the weight
  `rsqrt (max deg(src e) 1) · rsqrt (max deg(dst e) 1)`. A layer maps `h` to `act (A (h · W) + b)`, where `A` gathers
  the rows of `h · W` at the edges' sources, scales them by the edge weights and sums them into the rows of the edges'
  destinations; the activation is `max · 0` for the first two layers and `1 / (1 + exp (-·))` for the last.

  The reference does all of this on the host. The kernel program does the gathers, scalings and scatter-sums on the
  host too, with the same operations in the same order, and computes each `h · W` and each `act (· + b)` in a tiled
  region of twenty-five blocks of 6000 rows. At the ideal values a block's product (operands narrowed to a shorter
  float format, accumulated from zero) is the exact sum over the contracted coordinate, as the host's product is, and
  the blocks tile the rows; the bias and activation are entrywise, and the kernel's `0 - v` is the reference's `-v` on
  every extended real. So stage by stage the two programs hold the same arrays, and their results are equal. No step
  distributes a product over a sum or cancels, so the equality holds for all extended-real inputs and the finiteness
  precondition is not used.

  The three frames are the generated ones (the reference's is its generated run with the result dropped); the
  idealization rewrote nothing, so there is nothing to preserve.
-/
import proofs.«179173_j6889127543167_1_alg».proof.Defs
import proofs.«179173_j6889127543167_1_alg».proof.Proof.Gen.Kernel
import proofs.«179173_j6889127543167_1_alg».proof.Proof.Gen.Kernel.Skeleton
import proofs.«179173_j6889127543167_1_alg».proof.Proof.Gen.Kernel.Launch
import proofs.«179173_j6889127543167_1_alg».proof.Proof.Gen.Kernel.Points
import proofs.«179173_j6889127543167_1_alg».proof.Proof.Gen.Kernel.Frame
import proofs.«179173_j6889127543167_1_alg».proof.Proof.Gen.KernelIdeal
import proofs.«179173_j6889127543167_1_alg».proof.Proof.Gen.KernelIdeal.Skeleton
import proofs.«179173_j6889127543167_1_alg».proof.Proof.Gen.KernelIdeal.Launch
import proofs.«179173_j6889127543167_1_alg».proof.Proof.Gen.KernelIdeal.Points
import proofs.«179173_j6889127543167_1_alg».proof.Proof.Gen.KernelIdeal.Frame
import proofs.«179173_j6889127543167_1_alg».proof.Proof.Gen.ReferenceIdeal
import proofs.«179173_j6889127543167_1_alg».proof.Proof.Gen.ReferenceIdeal.Run
import proofs.«179173_j6889127543167_1_alg».proof.Proof.Gen.ReferenceIdeal.Read
import proofs.«179173_j6889127543167_1_alg».proof.Proof.Gen.Pre_finite_inputs
import proofs.«179173_j6889127543167_1_alg».proof.Proof.KernelRun
import proofs.«179173_j6889127543167_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the eight arguments both programs run, and both results are the reference's last stage of
    those arguments: the kernel program's by the fold through its ten boundaries, the reference's by its run. -/
theorem algebraic : Cert.algebraic_KernelIdeal_ReferenceIdeal := by
  intro m ρ m' ρ' _ hagree
  refine ⟨fun c => Cert.KernelIdeal.Gen.W10 m ρ c (Proc.devRef .tc Cert.KernelIdeal.main_v70),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v84 m' c
    = Cert.KernelIdeal.Gen.W10 m ρ c (Proc.devRef .tc Cert.KernelIdeal.main_v70)
  obtain ⟨e0, e1, e2, e3, e4, e5, e6, e7⟩ := hagree c
  rw [Cert.ReferenceIdeal.Read.val_main_v84_eq, e0, e1, e2, e3, e4, e5, e6, e7]
  exact (Cert.KernelIdeal.Hand.Chain.w10_v70 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
